-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S2x64x64 : Shape := ⟨3, ![2, 64, 64]⟩
abbrev S64x32 : Shape := ⟨2, ![64, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S64x32 : S_.BroadcastsInDim S64x32 (![] : Fin 0 → Fin S64x32.rank)
  reducesTo_S64x32_S_d0_1 : S64x32.ReducesTo [0, 1] S_

variable [Facts]

def fn_part1 {F : FTy → Type} [FloatOps F] (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x64 .f32) (main_arg3 : FVec F S2x64x64 .f32) (main_arg4 : FVec F S64x32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S2x64x64 .f32 := Host.absf main_arg3
  let main_cst_2 : FVec F S_ .f32 := constant S_ .f32 0x7F800000#32
  let main_v10 : FVec F S2x64x64 .f32 := broadcastInDim S2x64x64 ![] bcast_S_S2x64x64 main_cst_2
  let main_v11 : IVec S2x64x64 1 := cmpf .olt main_v9 main_v10
  let main_c_3 : IVec S_ 1 := constantI S_ 1 1#1
  let main_v12 : IVec S_ 1 := (fun x v => Host.reduce IntOp.andi x v reducesTo_S2x64x64_S_d0_1_2 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S2x64x64 : Shape := ⟨3, ![2, 64, 64]⟩
abbrev S64x32 : Shape := ⟨2, ![64, 32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S5000x128 : Shape := ⟨2, ![5000, 128]⟩
abbrev S5000x64 : Shape := ⟨2, ![5000, 64]⟩
abbrev S100000x1 : Shape := ⟨2, ![100000, 1]⟩
abbrev S1600000x64 : Shape := ⟨2, ![1600000, 64]⟩
abbrev S1x64x64 : Shape := ⟨3, ![1, 64, 64]⟩
abbrev S64x64 : Shape := ⟨2, ![64, 64]⟩
abbrev S100000x32 : Shape := ⟨2, ![100000, 32]⟩
abbrev S5000x32 : Shape := ⟨2, ![5000, 32]⟩

abbrev nBuf : Space → Nat
  | .hbm => 65
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S2x64x64, .f32⟩
  | .hbm, ⟨4, _⟩ => ⟨S64x32, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S100000x64, .f32⟩
  | .hbm, ⟨20, _⟩ => ⟨S100000x1, .f32⟩
  | .hbm, ⟨21, _⟩ => ⟨S100000x64, .f32⟩
  | .hbm, ⟨22, _⟩ => ⟨S100000x64, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S1x64x64, .f32⟩
  | .hbm, ⟨40, _⟩ => ⟨S64x64, .f32⟩
  | .hbm, ⟨41, _⟩ => ⟨S100000x64, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S1x64x64, .f32⟩
  | .hbm, ⟨62, _⟩ => ⟨S64x64, .f32⟩
  | .hbm, ⟨63, _⟩ => ⟨S100000x64, .f32⟩
  | .hbm, ⟨64, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S64x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S64x32, .f32⟩
  | .local _ .vmem, ⟨22, _⟩ => ⟨S5000x32, .f32⟩
  | .local _ .vmem, ⟨23, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_4 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  slices_S2x64x64_S1x64x64_0_0_0 : S2x64x64.Slices ![0, 0, 0] S1x64x64
  shapeCasts_S1x64x64_S64x64 : S1x64x64.ShapeCasts S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x64x64_S1x64x64_1_0_0 : S2x64x64.Slices ![1, 0, 0] S1x64x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v49) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S2x64x64 : Shape := ⟨3, ![2, 64, 64]⟩
abbrev S64x32 : Shape := ⟨2, ![64, 32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S1x64x64 : Shape := ⟨3, ![1, 64, 64]⟩
abbrev S64x64 : Shape := ⟨2, ![64, 64]⟩
abbrev S100000x32 : Shape := ⟨2, ![100000, 32]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S2x64x64, .f32⟩
  | .hbm, ⟨4, _⟩ => ⟨S64x32, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000, .f32⟩
  | .hbm, ⟨24, _⟩ => ⟨S_, .f32⟩
  | .hbm, ⟨25, _⟩ => ⟨S1600000, .f32⟩
  | .hbm, ⟨26, _⟩ => ⟨S1600000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .f32⟩
  | .hbm, ⟨37, _⟩ => ⟨S1600000, .f32⟩
  | .hbm, ⟨38, _⟩ => ⟨S1600000, .f32⟩
  | .hbm, ⟨39, _⟩ => ⟨S1600000, .f32⟩
  | .hbm, ⟨40, _⟩ => ⟨S1600000, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S1600000x1, .f32⟩
  | .hbm, ⟨52, _⟩ => ⟨S1600000x64, .f32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S100000x64, .f32⟩
  | .hbm, ⟨59, _⟩ => ⟨S1x64x64, .f32⟩
  | .hbm, ⟨60, _⟩ => ⟨S64x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S1600000x1, .f32⟩
  | .hbm, ⟨75, _⟩ => ⟨S1600000x64, .f32⟩
  | .hbm, ⟨76, _⟩ => ⟨S1600000x64, .f32⟩
  | .hbm, ⟨77, _⟩ => ⟨S_, .f32⟩
  | .hbm, ⟨78, _⟩ => ⟨S100000x64, .f32⟩
  | .hbm, ⟨79, _⟩ => ⟨S1600000x1, .i32⟩
  | .hbm, ⟨80, _⟩ => ⟨S100000x64, .f32⟩
  | .hbm, ⟨81, _⟩ => ⟨S100000x64, .f32⟩
  | .hbm, ⟨82, _⟩ => ⟨S1x64x64, .f32⟩
  | .hbm, ⟨83, _⟩ => ⟨S64x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_c_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_cst : Ref sig .tc := ⟨.hbm, 85, rfl⟩
abbrev main_call1_v0 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S2x64x64_S1x64x64_0_0_0 : S2x64x64.Slices ![0, 0, 0] S1x64x64
  shapeCasts_S1x64x64_S64x64 : S1x64x64.ShapeCasts S64x64
  slices_S2x64x64_S1x64x64_1_0_0 : S2x64x64.Slices ![1, 0, 0] S1x64x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The run of the idealized program with its result named: every weakly fair execution of @main terminates without a
  fault, the argument arrays end as launched, and the result array ends holding what the LAST boundary of the run holds
  at the result buffer — the contents after the fourth region's write-backs (`Gen.W7`), a fold through the three
  stretches of host operations and the four regions from the launch memory. The frame certificate proves the same run
  and keeps only the arguments; here the final state is read once more, at the result buffer.
-/
import proofs.«129152_j49855980372316_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer read at the last boundary's contents and the arguments as launched. -/
theorem run : θ_run defs (onTc (τ := τ) (main (F := F))) ⟨m, fun _ => 0, ρ⟩ (fun r => ∀ c : Dev nD,
      r.2.mem ((c.tc : Thread nD τ).loc main_v50) = W7 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v50 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Result

end
-- ==== Proof.InputProjection.lean ====
/-
  The input projection: the node features times the input weights, as the first region leaves it.

  The region runs over 20 grid points; point `t` stages rows `5000 t … 5000 t + 4999` of the node features (all 128
  columns) beside the whole 128 × 64 weight array, and writes back rows `5000 t … 5000 t + 4999` of the result. Its body
  multiplies the staged rows by the weights into a zero accumulator, so at the exact instance the entry at row `r` and column
  `q` of the written block is `∑ k, rows (r, k) * weights (k, q)`: the block is the restriction to those rows of ONE
  function of the two whole arrays, `prod`. The twenty blocks tile the result array, which therefore ends holding `prod` of
  the region's two operand arrays as the region finds them.
-/
import proofs.«129152_j49855980372316_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.InputProjection

open Cert.KernelIdeal Cert.KernelIdeal.Gen
open Idealize.ShloMosaic Idealize.ShloMosaic.TcCoe Idealize.SL.Sem
open Idealize.ShloMosaic.Pipeline (Dat)

/-- Row `i 0`, column `k` of the left operand. -/
abbrev lrow (i : S100000x64.Idx) (k : Fin 128) : S100000x128.Idx := fun a => match a with
  | ⟨0, _⟩ => ⟨(i 0).val, (i 0).isLt⟩
  | ⟨1, _⟩ => ⟨k.val, k.isLt⟩
/-- Row `k`, column `i 1` of the weights. -/
abbrev wcol (i : S100000x64.Idx) (k : Fin 128) : S128x64.Idx := fun a => match a with
  | ⟨0, _⟩ => ⟨k.val, k.isLt⟩
  | ⟨1, _⟩ => ⟨(i 1).val, (i 1).isLt⟩

/-- The matrix product of the whole arrays, entry by entry. -/
def prod (a : S100000x128.Idx → Elt Ideal .f32) (w : S128x64.Idx → Elt Ideal .f32) : S100000x64.Idx → Elt Ideal .f32 :=
  fun i => ∑ k : Fin 128, a (lrow i k) * w (wcol i k)

/-- Row `j 0`, column `k` of a staged block of rows. -/
abbrev brow (j : S5000x64.Idx) (k : Fin 128) : S5000x128.Idx := fun a => match a with
  | ⟨0, _⟩ => ⟨(j 0).val, (j 0).isLt⟩
  | ⟨1, _⟩ => ⟨k.val, k.isLt⟩
/-- Row `k`, column `j 1` of the staged weights. -/
abbrev bcol (j : S5000x64.Idx) (k : Fin 128) : S128x64.Idx := fun a => match a with
  | ⟨0, _⟩ => ⟨k.val, k.isLt⟩
  | ⟨1, _⟩ => ⟨(j 1).val, (j 1).isLt⟩

local notation "dd" => dot_S5000x128_S128x64_S5000x64_1_0_0_1_n_n

/-- The body's arithmetic at an entry of the block: the sum over the contracted axis of the products (a change of float
    format is the identity, the accumulator is zero). -/
theorem pay_apply (x0 : Vec Ideal S5000x128 .f32) (x1 : Vec Ideal S128x64 .f32) (j : S5000x64.Idx) :
    k0_pay1 x0 x1 j = ∑ k : Fin 128, x0 (brow j k) * x1 (bcol j k) := by
  unfold k0_pay1
  refine (Ideal.matmul_constant_zero_apply dot_S5000x128_S128x64_S5000x64_1_0_0_1_n_n none _ _ j).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : (dot_S5000x128_S128x64_S5000x64_1_0_0_1_n_n).lhsIdx j ((ValueIdx.contrEquiv1 dot_S5000x128_S128x64_S5000x64_1_0_0_1_n_n 128 rfl rfl).symm k) = brow j k :=
    funext fun a => Fin.ext (by
      match a with
      | ⟨0, _⟩ =>
        show ((dot_S5000x128_S128x64_S5000x64_1_0_0_1_n_n).lhsIdx j _ 0).val = (j 0).val
        unfold DotDims.lhsIdx
        rw [dif_neg (show ¬(0 : Fin S5000x128.rank) ∈ (dot_S5000x128_S128x64_S5000x64_1_0_0_1_n_n).lhsBatch by decide),
          dif_pos (show (0 : Fin S5000x128.rank) ∈ (dot_S5000x128_S128x64_S5000x64_1_0_0_1_n_n).lhsNonContracting by decide)]
        rfl
      | ⟨1, _⟩ => exact ((dot_S5000x128_S128x64_S5000x64_1_0_0_1_n_n).lhsIdx_val_of_single rfl j _).trans hk)
  have er : (dot_S5000x128_S128x64_S5000x64_1_0_0_1_n_n).rhsIdx j ((ValueIdx.contrEquiv1 dot_S5000x128_S128x64_S5000x64_1_0_0_1_n_n 128 rfl rfl).symm k) = bcol j k :=
    funext fun a => Fin.ext (by
      match a with
      | ⟨0, _⟩ => exact ((dot_S5000x128_S128x64_S5000x64_1_0_0_1_n_n).rhsIdx_val_of_single rfl j _).trans hk
      | ⟨1, _⟩ =>
        show ((dot_S5000x128_S128x64_S5000x64_1_0_0_1_n_n).rhsIdx j _ 1).val = (j 1).val
        unfold DotDims.rhsIdx
        rw [dif_neg (show ¬(1 : Fin S128x64.rank) ∈ (dot_S5000x128_S128x64_S5000x64_1_0_0_1_n_n).rhsBatch by decide),
          dif_pos (show (1 : Fin S128x64.rank) ∈ (dot_S5000x128_S128x64_S5000x64_1_0_0_1_n_n).rhsNonContracting by decide)]
        rfl)
  show x0 ((dot_S5000x128_S128x64_S5000x64_1_0_0_1_n_n).lhsIdx j _) * x1 ((dot_S5000x128_S128x64_S5000x64_1_0_0_1_n_n).rhsIdx j _) = _
  rw [el, er]

theorem hz : (![0, 0] : Fin 2 → Nat) = fun _ => 0 := funext fun a => by fin_cases a <;> rfl

/-- The printed index maps over the grid: the rows' window and the result's window sit at block `t` of the row axis and
    block 0 of the column axis; the weights' window never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the product of the two operand arrays as the region finds them. -/
theorem flushed_eq (c : Dev nD) (t : Fin cfg0.N) :
    (dat0 V c).flushed 2 t = ((cfg0.win 2).blk t).view.read (Elt Ideal)
      (prod (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts t
  funext j
  refine (pay_apply _ _ j).trans ?_
  show _ = prod (V c (Pipeline.arrRef spec0 0)) (V c (Pipeline.arrRef spec0 1)) (((cfg0.win 2).blk t).view.emb j)
  unfold prod
  refine Finset.sum_congr rfl fun k _ => ?_
  have h0 : iblk0 V c 0 t (brow j k)
      = (V c (Pipeline.arrRef spec0 0) : S100000x128.Idx → Elt Ideal .f32) (lrow (((cfg0.win 2).blk t).view.emb j) k) := by
    show V c (Pipeline.arrRef spec0 0) (((cfg0.win 0).blk t).view.emb (brow j k)) = _
    refine congrArg _ (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  have h1 : iblk0 V c 1 t (bcol j k)
      = (V c (Pipeline.arrRef spec0 1) : S128x64.Idx → Elt Ideal .f32) (wcol (((cfg0.win 2).blk t).view.emb j) k) := by
    show V c (Pipeline.arrRef spec0 1) (((cfg0.win 1).blk t).view.emb (bcol j k)) = _
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 64 + 1 * (j 1).val = win0_2.index t (1 : Fin 2) * 64 + 1 * (j 1).val
      omega
  rw [h0, h1]

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v11).slice (win0_2.rect t)).set ↔ _
  rw [View.set_slice_whole, Rect.mem_set_unit]
  exact Iff.rfl

/-- Every index of the result array is in the block of the point that owns its row, `row / 5000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  let t : Fin cfg0.N := ⟨(i 0).val / 5000, by show (i 0).val / 5000 < grid0.N; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- THE RESULT ARRAY after the region: the product of its two operand arrays as the region finds them. -/
theorem final (c : Dev nD) :
    (dat0 V c).arrAt 2 cfg0.N = prod (V c (Pipeline.arrRef spec0 0)) (V c (Pipeline.arrRef spec0 1)) :=
  (dat0 V c).arrAt_eq_of_cover 2 _ (fun t _ => flushed_eq V c t) cover

end Cert.KernelIdeal.InputProjection

end
-- ==== Proof.CombineFirst.lean ====
/-
  The first layer's combine step, as the second region leaves it.

  The region runs over 20 grid points; point `t` stages rows `5000 t … 5000 t + 4999` of the aggregate and of the node
  state (64 columns each) beside the whole 64 × 64 weight array, and writes back the same rows of the result. Its body adds
  the two staged blocks, multiplies the sum by the weights into a zero accumulator and takes the maximum with zero, so at
  the exact instance the entry at row `r`, column `q` of the written block is
  `max (∑ k, (agg (r, k) + state (r, k)) * weights (k, q)) 0`: the block is the restriction to those rows of ONE function
  of the three whole arrays, `combine`. The twenty blocks tile the result array, which therefore ends holding `combine` of
  the region's three operand arrays as the region finds them.
-/
import proofs.«129152_j49855980372316_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.CombineFirst

open Cert.KernelIdeal Cert.KernelIdeal.Gen
open Idealize.ShloMosaic Idealize.ShloMosaic.TcCoe Idealize.SL.Sem
open Idealize.ShloMosaic.Pipeline (Dat)

/-- Row `i 0`, column `k` of a node array. -/
abbrev lrow (i : S100000x64.Idx) (k : Fin 64) : S100000x64.Idx := fun a => match a with
  | ⟨0, _⟩ => ⟨(i 0).val, (i 0).isLt⟩
  | ⟨1, _⟩ => ⟨k.val, k.isLt⟩
/-- Row `k`, column `i 1` of the weights. -/
abbrev wcol (i : S100000x64.Idx) (k : Fin 64) : S64x64.Idx := fun a => match a with
  | ⟨0, _⟩ => ⟨k.val, k.isLt⟩
  | ⟨1, _⟩ => ⟨(i 1).val, (i 1).isLt⟩

/-- The layer's combine step on whole arrays, entry by entry: the positive part of (aggregate + state) times weights. -/
def combine (a h : S100000x64.Idx → Elt Ideal .f32) (w : S64x64.Idx → Elt Ideal .f32) : S100000x64.Idx → Elt Ideal .f32 :=
  fun i => max (∑ k : Fin 64, (a (lrow i k) + h (lrow i k)) * w (wcol i k)) (FloatOps.ofBits (F := Ideal) .f32 0x00000000#32)

/-- Row `j 0`, column `k` of a staged block of rows. -/
abbrev brow (j : S5000x64.Idx) (k : Fin 64) : S5000x64.Idx := fun a => match a with
  | ⟨0, _⟩ => ⟨(j 0).val, (j 0).isLt⟩
  | ⟨1, _⟩ => ⟨k.val, k.isLt⟩
/-- Row `k`, column `j 1` of the staged weights. -/
abbrev bcol (j : S5000x64.Idx) (k : Fin 64) : S64x64.Idx := fun a => match a with
  | ⟨0, _⟩ => ⟨k.val, k.isLt⟩
  | ⟨1, _⟩ => ⟨(j 1).val, (j 1).isLt⟩

/-- The body's arithmetic at an entry of the block (a cast to the same shape and a change of float format are the
    identity, the accumulator is zero). -/
theorem pay_apply (x0 x1 : Vec Ideal S5000x64 .f32) (x2 : Vec Ideal S64x64 .f32) (j : S5000x64.Idx) :
    k1_pay1 x0 x1 x2 j
      = max (∑ k : Fin 64, (x0 (brow j k) + x1 (brow j k)) * x2 (bcol j k)) (FloatOps.ofBits (F := Ideal) .f32 0x00000000#32) := by
  unfold k1_pay1
  simp only [shapeCast_self]
  refine congrArg (fun z => max z (FloatOps.ofBits (F := Ideal) .f32 0x00000000#32)) ?_
  refine (Ideal.matmul_constant_zero_apply dot_S5000x64_S64x64_S5000x64_1_0_0_1_n_n none _ _ j).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : (dot_S5000x64_S64x64_S5000x64_1_0_0_1_n_n).lhsIdx j ((ValueIdx.contrEquiv1 dot_S5000x64_S64x64_S5000x64_1_0_0_1_n_n 64 rfl rfl).symm k) = brow j k :=
    funext fun a => Fin.ext (by
      match a with
      | ⟨0, _⟩ =>
        show ((dot_S5000x64_S64x64_S5000x64_1_0_0_1_n_n).lhsIdx j _ 0).val = (j 0).val
        unfold DotDims.lhsIdx
        rw [dif_neg (show ¬(0 : Fin S5000x64.rank) ∈ (dot_S5000x64_S64x64_S5000x64_1_0_0_1_n_n).lhsBatch by decide),
          dif_pos (show (0 : Fin S5000x64.rank) ∈ (dot_S5000x64_S64x64_S5000x64_1_0_0_1_n_n).lhsNonContracting by decide)]
        rfl
      | ⟨1, _⟩ => exact ((dot_S5000x64_S64x64_S5000x64_1_0_0_1_n_n).lhsIdx_val_of_single rfl j _).trans hk)
  have er : (dot_S5000x64_S64x64_S5000x64_1_0_0_1_n_n).rhsIdx j ((ValueIdx.contrEquiv1 dot_S5000x64_S64x64_S5000x64_1_0_0_1_n_n 64 rfl rfl).symm k) = bcol j k :=
    funext fun a => Fin.ext (by
      match a with
      | ⟨0, _⟩ => exact ((dot_S5000x64_S64x64_S5000x64_1_0_0_1_n_n).rhsIdx_val_of_single rfl j _).trans hk
      | ⟨1, _⟩ =>
        show ((dot_S5000x64_S64x64_S5000x64_1_0_0_1_n_n).rhsIdx j _ 1).val = (j 1).val
        unfold DotDims.rhsIdx
        rw [dif_neg (show ¬(1 : Fin S64x64.rank) ∈ (dot_S5000x64_S64x64_S5000x64_1_0_0_1_n_n).rhsBatch by decide),
          dif_pos (show (1 : Fin S64x64.rank) ∈ (dot_S5000x64_S64x64_S5000x64_1_0_0_1_n_n).rhsNonContracting by decide)]
        rfl)
  show (x0 ((dot_S5000x64_S64x64_S5000x64_1_0_0_1_n_n).lhsIdx j _) + x1 ((dot_S5000x64_S64x64_S5000x64_1_0_0_1_n_n).lhsIdx j _))
      * x2 ((dot_S5000x64_S64x64_S5000x64_1_0_0_1_n_n).rhsIdx j _) = _
  rw [el, er]

theorem hz : (![0, 0] : Fin 2 → Nat) = fun _ => 0 := funext fun a => by fin_cases a <;> rfl

/-- The printed index maps over the grid: the two row windows and the result's window sit at block `t` of the row axis and
    block 0 of the column axis; the weights' window never moves. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of `combine` of the three operand arrays as the region finds them. -/
theorem flushed_eq (c : Dev nD) (t : Fin cfg1.N) :
    (dat1 V c).flushed 3 t = ((cfg1.win 3).blk t).view.read (Elt Ideal)
      (combine (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x64) hz]
  obtain ⟨e0, e1, e2, e3, e4, e5, e6, e7⟩ := idx_facts t
  funext j
  refine (pay_apply _ _ _ j).trans ?_
  show _ = combine (V c (Pipeline.arrRef spec1 0)) (V c (Pipeline.arrRef spec1 1)) (V c (Pipeline.arrRef spec1 2))
    (((cfg1.win 3).blk t).view.emb j)
  unfold combine
  refine congrArg (fun z => max z (FloatOps.ofBits (F := Ideal) .f32 0x00000000#32)) ?_
  refine Finset.sum_congr rfl fun k _ => ?_
  have h0 : iblk1 V c 0 t (brow j k)
      = (V c (Pipeline.arrRef spec1 0) : S100000x64.Idx → Elt Ideal .f32) (lrow (((cfg1.win 3).blk t).view.emb j) k) := by
    show V c (Pipeline.arrRef spec1 0) (((cfg1.win 0).blk t).view.emb (brow j k)) = _
    refine congrArg _ (funext fun a => Fin.ext ?_)
    match a with
    | ⟨0, _⟩ =>
      show win1_0.index t (0 : Fin 2) * 5000 + 1 * (j 0).val = win1_3.index t (0 : Fin 2) * 5000 + 1 * (j 0).val
      omega
    | ⟨1, _⟩ =>
      show win1_0.index t (1 : Fin 2) * 64 + 1 * k.val = k.val
      omega
  have h1 : iblk1 V c 1 t (brow j k)
      = (V c (Pipeline.arrRef spec1 1) : S100000x64.Idx → Elt Ideal .f32) (lrow (((cfg1.win 3).blk t).view.emb j) k) := by
    show V c (Pipeline.arrRef spec1 1) (((cfg1.win 1).blk t).view.emb (brow j k)) = _
    refine congrArg _ (funext fun a => Fin.ext ?_)
    match a with
    | ⟨0, _⟩ =>
      show win1_1.index t (0 : Fin 2) * 5000 + 1 * (j 0).val = win1_3.index t (0 : Fin 2) * 5000 + 1 * (j 0).val
      omega
    | ⟨1, _⟩ =>
      show win1_1.index t (1 : Fin 2) * 64 + 1 * k.val = k.val
      omega
  have h2 : iblk1 V c 2 t (bcol j k)
      = (V c (Pipeline.arrRef spec1 2) : S64x64.Idx → Elt Ideal .f32) (wcol (((cfg1.win 3).blk t).view.emb j) k) := by
    show V c (Pipeline.arrRef spec1 2) (((cfg1.win 2).blk t).view.emb (bcol j k)) = _
    refine congrArg _ (funext fun a => Fin.ext ?_)
    match a with
    | ⟨0, _⟩ =>
      show win1_2.index t (0 : Fin 2) * 64 + 1 * k.val = k.val
      omega
    | ⟨1, _⟩ =>
      show win1_2.index t (1 : Fin 2) * 64 + 1 * (j 1).val = win1_3.index t (1 : Fin 2) * 64 + 1 * (j 1).val
      omega
  rw [h0, h1, h2]

/-- An index of the result array is in point `t`'s block iff each coordinate is in the block's range on its axis. -/
theorem mem_blk (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v30).slice (win1_3.rect t)).set ↔ _
  rw [View.set_slice_whole, Rect.mem_set_unit]
  exact Iff.rfl

/-- Every index of the result array is in the block of the point that owns its row, `row / 5000`. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 20 := N_1
  let t : Fin cfg1.N := ⟨(i 0).val / 5000, by show (i 0).val / 5000 < grid1.N; omega⟩
  obtain ⟨e0, e1, e2, e3, e4, e5, e6, e7⟩ := idx_facts t
  have ht : t.val = (i 0).val / 5000 := rfl
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-- THE RESULT ARRAY after the region: `combine` of its three operand arrays as the region finds them. -/
theorem final (c : Dev nD) :
    (dat1 V c).arrAt 3 cfg1.N
      = combine (V c (Pipeline.arrRef spec1 0)) (V c (Pipeline.arrRef spec1 1)) (V c (Pipeline.arrRef spec1 2)) :=
  (dat1 V c).arrAt_eq_of_cover 3 _ (fun t _ => flushed_eq V c t) cover

end Cert.KernelIdeal.CombineFirst

end
-- ==== Proof.CombineSecond.lean ====
/-
  The second layer's combine step, as the third region leaves it.

  The region runs over 20 grid points; point `t` stages rows `5000 t … 5000 t + 4999` of the aggregate and of the node
  state (64 columns each) beside the whole 64 × 64 weight array, and writes back the same rows of the result. Its body adds
  the two staged blocks, multiplies the sum by the weights into a zero accumulator and takes the maximum with zero, so at
  the exact instance the entry at row `r`, column `q` of the written block is
  `max (∑ k, (agg (r, k) + state (r, k)) * weights (k, q)) 0`: the block is the restriction to those rows of ONE function
  of the three whole arrays, `combine`. The twenty blocks tile the result array, which therefore ends holding `combine` of
  the region's three operand arrays as the region finds them.
-/
import proofs.«129152_j49855980372316_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.CombineSecond

open Cert.KernelIdeal Cert.KernelIdeal.Gen
open Idealize.ShloMosaic Idealize.ShloMosaic.TcCoe Idealize.SL.Sem
open Idealize.ShloMosaic.Pipeline (Dat)

/-- Row `i 0`, column `k` of a node array. -/
abbrev lrow (i : S100000x64.Idx) (k : Fin 64) : S100000x64.Idx := fun a => match a with
  | ⟨0, _⟩ => ⟨(i 0).val, (i 0).isLt⟩
  | ⟨1, _⟩ => ⟨k.val, k.isLt⟩
/-- Row `k`, column `i 1` of the weights. -/
abbrev wcol (i : S100000x64.Idx) (k : Fin 64) : S64x64.Idx := fun a => match a with
  | ⟨0, _⟩ => ⟨k.val, k.isLt⟩
  | ⟨1, _⟩ => ⟨(i 1).val, (i 1).isLt⟩

/-- The layer's combine step on whole arrays, entry by entry: the positive part of (aggregate + state) times weights. -/
def combine (a h : S100000x64.Idx → Elt Ideal .f32) (w : S64x64.Idx → Elt Ideal .f32) : S100000x64.Idx → Elt Ideal .f32 :=
  fun i => max (∑ k : Fin 64, (a (lrow i k) + h (lrow i k)) * w (wcol i k)) (FloatOps.ofBits (F := Ideal) .f32 0x00000000#32)

/-- Row `j 0`, column `k` of a staged block of rows. -/
abbrev brow (j : S5000x64.Idx) (k : Fin 64) : S5000x64.Idx := fun a => match a with
  | ⟨0, _⟩ => ⟨(j 0).val, (j 0).isLt⟩
  | ⟨1, _⟩ => ⟨k.val, k.isLt⟩
/-- Row `k`, column `j 1` of the staged weights. -/
abbrev bcol (j : S5000x64.Idx) (k : Fin 64) : S64x64.Idx := fun a => match a with
  | ⟨0, _⟩ => ⟨k.val, k.isLt⟩
  | ⟨1, _⟩ => ⟨(j 1).val, (j 1).isLt⟩

/-- The body's arithmetic at an entry of the block (a cast to the same shape and a change of float format are the
    identity, the accumulator is zero). -/
theorem pay_apply (x0 x1 : Vec Ideal S5000x64 .f32) (x2 : Vec Ideal S64x64 .f32) (j : S5000x64.Idx) :
    k2_pay1 x0 x1 x2 j
      = max (∑ k : Fin 64, (x0 (brow j k) + x1 (brow j k)) * x2 (bcol j k)) (FloatOps.ofBits (F := Ideal) .f32 0x00000000#32) := by
  unfold k2_pay1
  simp only [shapeCast_self]
  refine congrArg (fun z => max z (FloatOps.ofBits (F := Ideal) .f32 0x00000000#32)) ?_
  refine (Ideal.matmul_constant_zero_apply dot_S5000x64_S64x64_S5000x64_1_0_0_1_n_n none _ _ j).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : (dot_S5000x64_S64x64_S5000x64_1_0_0_1_n_n).lhsIdx j ((ValueIdx.contrEquiv1 dot_S5000x64_S64x64_S5000x64_1_0_0_1_n_n 64 rfl rfl).symm k) = brow j k :=
    funext fun a => Fin.ext (by
      match a with
      | ⟨0, _⟩ =>
        show ((dot_S5000x64_S64x64_S5000x64_1_0_0_1_n_n).lhsIdx j _ 0).val = (j 0).val
        unfold DotDims.lhsIdx
        rw [dif_neg (show ¬(0 : Fin S5000x64.rank) ∈ (dot_S5000x64_S64x64_S5000x64_1_0_0_1_n_n).lhsBatch by decide),
          dif_pos (show (0 : Fin S5000x64.rank) ∈ (dot_S5000x64_S64x64_S5000x64_1_0_0_1_n_n).lhsNonContracting by decide)]
        rfl
      | ⟨1, _⟩ => exact ((dot_S5000x64_S64x64_S5000x64_1_0_0_1_n_n).lhsIdx_val_of_single rfl j _).trans hk)
  have er : (dot_S5000x64_S64x64_S5000x64_1_0_0_1_n_n).rhsIdx j ((ValueIdx.contrEquiv1 dot_S5000x64_S64x64_S5000x64_1_0_0_1_n_n 64 rfl rfl).symm k) = bcol j k :=
    funext fun a => Fin.ext (by
      match a with
      | ⟨0, _⟩ => exact ((dot_S5000x64_S64x64_S5000x64_1_0_0_1_n_n).rhsIdx_val_of_single rfl j _).trans hk
      | ⟨1, _⟩ =>
        show ((dot_S5000x64_S64x64_S5000x64_1_0_0_1_n_n).rhsIdx j _ 1).val = (j 1).val
        unfold DotDims.rhsIdx
        rw [dif_neg (show ¬(1 : Fin S64x64.rank) ∈ (dot_S5000x64_S64x64_S5000x64_1_0_0_1_n_n).rhsBatch by decide),
          dif_pos (show (1 : Fin S64x64.rank) ∈ (dot_S5000x64_S64x64_S5000x64_1_0_0_1_n_n).rhsNonContracting by decide)]
        rfl)
  show (x0 ((dot_S5000x64_S64x64_S5000x64_1_0_0_1_n_n).lhsIdx j _) + x1 ((dot_S5000x64_S64x64_S5000x64_1_0_0_1_n_n).lhsIdx j _))
      * x2 ((dot_S5000x64_S64x64_S5000x64_1_0_0_1_n_n).rhsIdx j _) = _
  rw [el, er]

theorem hz : (![0, 0] : Fin 2 → Nat) = fun _ => 0 := funext fun a => by fin_cases a <;> rfl

/-- The printed index maps over the grid: the two row windows and the result's window sit at block `t` of the row axis and
    block 0 of the column axis; the weights' window never moves. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What point `t` writes back is block `t` of `combine` of the three operand arrays as the region finds them. -/
theorem flushed_eq (c : Dev nD) (t : Fin cfg2.N) :
    (dat2 V c).flushed 3 t = ((cfg2.win 3).blk t).view.read (Elt Ideal)
      (combine (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S5000x64) hz, View.ld_unit_zero (S := S64x64) hz]
  obtain ⟨e0, e1, e2, e3, e4, e5, e6, e7⟩ := idx_facts t
  funext j
  refine (pay_apply _ _ _ j).trans ?_
  show _ = combine (V c (Pipeline.arrRef spec2 0)) (V c (Pipeline.arrRef spec2 1)) (V c (Pipeline.arrRef spec2 2))
    (((cfg2.win 3).blk t).view.emb j)
  unfold combine
  refine congrArg (fun z => max z (FloatOps.ofBits (F := Ideal) .f32 0x00000000#32)) ?_
  refine Finset.sum_congr rfl fun k _ => ?_
  have h0 : iblk2 V c 0 t (brow j k)
      = (V c (Pipeline.arrRef spec2 0) : S100000x64.Idx → Elt Ideal .f32) (lrow (((cfg2.win 3).blk t).view.emb j) k) := by
    show V c (Pipeline.arrRef spec2 0) (((cfg2.win 0).blk t).view.emb (brow j k)) = _
    refine congrArg _ (funext fun a => Fin.ext ?_)
    match a with
    | ⟨0, _⟩ =>
      show win2_0.index t (0 : Fin 2) * 5000 + 1 * (j 0).val = win2_3.index t (0 : Fin 2) * 5000 + 1 * (j 0).val
      omega
    | ⟨1, _⟩ =>
      show win2_0.index t (1 : Fin 2) * 64 + 1 * k.val = k.val
      omega
  have h1 : iblk2 V c 1 t (brow j k)
      = (V c (Pipeline.arrRef spec2 1) : S100000x64.Idx → Elt Ideal .f32) (lrow (((cfg2.win 3).blk t).view.emb j) k) := by
    show V c (Pipeline.arrRef spec2 1) (((cfg2.win 1).blk t).view.emb (brow j k)) = _
    refine congrArg _ (funext fun a => Fin.ext ?_)
    match a with
    | ⟨0, _⟩ =>
      show win2_1.index t (0 : Fin 2) * 5000 + 1 * (j 0).val = win2_3.index t (0 : Fin 2) * 5000 + 1 * (j 0).val
      omega
    | ⟨1, _⟩ =>
      show win2_1.index t (1 : Fin 2) * 64 + 1 * k.val = k.val
      omega
  have h2 : iblk2 V c 2 t (bcol j k)
      = (V c (Pipeline.arrRef spec2 2) : S64x64.Idx → Elt Ideal .f32) (wcol (((cfg2.win 3).blk t).view.emb j) k) := by
    show V c (Pipeline.arrRef spec2 2) (((cfg2.win 2).blk t).view.emb (bcol j k)) = _
    refine congrArg _ (funext fun a => Fin.ext ?_)
    match a with
    | ⟨0, _⟩ =>
      show win2_2.index t (0 : Fin 2) * 64 + 1 * k.val = k.val
      omega
    | ⟨1, _⟩ =>
      show win2_2.index t (1 : Fin 2) * 64 + 1 * (j 1).val = win2_3.index t (1 : Fin 2) * 64 + 1 * (j 1).val
      omega
  rw [h0, h1, h2]

/-- An index of the result array is in point `t`'s block iff each coordinate is in the block's range on its axis. -/
theorem mem_blk (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v49).slice (win2_3.rect t)).set ↔ _
  rw [View.set_slice_whole, Rect.mem_set_unit]
  exact Iff.rfl

/-- Every index of the result array is in the block of the point that owns its row, `row / 5000`. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : grid2.N = 20 := N_2
  let t : Fin cfg2.N := ⟨(i 0).val / 5000, by show (i 0).val / 5000 < grid2.N; omega⟩
  obtain ⟨e0, e1, e2, e3, e4, e5, e6, e7⟩ := idx_facts t
  have ht : t.val = (i 0).val / 5000 := rfl
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 64 ≤ (i 1).val ∧ (i 1).val < win2_3.index t (1 : Fin 2) * 64 + 64
    omega

/-- THE RESULT ARRAY after the region: `combine` of its three operand arrays as the region finds them. -/
theorem final (c : Dev nD) :
    (dat2 V c).arrAt 3 cfg2.N
      = combine (V c (Pipeline.arrRef spec2 0)) (V c (Pipeline.arrRef spec2 1)) (V c (Pipeline.arrRef spec2 2)) :=
  (dat2 V c).arrAt_eq_of_cover 3 _ (fun t _ => flushed_eq V c t) cover

end Cert.KernelIdeal.CombineSecond

end
-- ==== Proof.OutputProjection.lean ====
/-
  The output projection: the last layer's node state times the output weights, as the fourth region leaves it.

  The region runs over 20 grid points; point `t` stages rows `5000 t … 5000 t + 4999` of the node state (all 64
  columns) beside the whole 64 × 32 weight array, and writes back rows `5000 t … 5000 t + 4999` of the result. Its body
  multiplies the staged rows by the weights into a zero accumulator, so at the exact instance the entry at row `r` and column
  `q` of the written block is `∑ k, rows (r, k) * weights (k, q)`: the block is the restriction to those rows of ONE
  function of the two whole arrays, `prod`. The twenty blocks tile the result array, which therefore ends holding `prod` of
  the region's two operand arrays as the region finds them.
-/
import proofs.«129152_j49855980372316_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.OutputProjection

open Cert.KernelIdeal Cert.KernelIdeal.Gen
open Idealize.ShloMosaic Idealize.ShloMosaic.TcCoe Idealize.SL.Sem
open Idealize.ShloMosaic.Pipeline (Dat)

/-- Row `i 0`, column `k` of the left operand. -/
abbrev lrow (i : S100000x32.Idx) (k : Fin 64) : S100000x64.Idx := fun a => match a with
  | ⟨0, _⟩ => ⟨(i 0).val, (i 0).isLt⟩
  | ⟨1, _⟩ => ⟨k.val, k.isLt⟩
/-- Row `k`, column `i 1` of the weights. -/
abbrev wcol (i : S100000x32.Idx) (k : Fin 64) : S64x32.Idx := fun a => match a with
  | ⟨0, _⟩ => ⟨k.val, k.isLt⟩
  | ⟨1, _⟩ => ⟨(i 1).val, (i 1).isLt⟩

/-- The matrix product of the whole arrays, entry by entry. -/
def prod (a : S100000x64.Idx → Elt Ideal .f32) (w : S64x32.Idx → Elt Ideal .f32) : S100000x32.Idx → Elt Ideal .f32 :=
  fun i => ∑ k : Fin 64, a (lrow i k) * w (wcol i k)

/-- Row `j 0`, column `k` of a staged block of rows. -/
abbrev brow (j : S5000x32.Idx) (k : Fin 64) : S5000x64.Idx := fun a => match a with
  | ⟨0, _⟩ => ⟨(j 0).val, (j 0).isLt⟩
  | ⟨1, _⟩ => ⟨k.val, k.isLt⟩
/-- Row `k`, column `j 1` of the staged weights. -/
abbrev bcol (j : S5000x32.Idx) (k : Fin 64) : S64x32.Idx := fun a => match a with
  | ⟨0, _⟩ => ⟨k.val, k.isLt⟩
  | ⟨1, _⟩ => ⟨(j 1).val, (j 1).isLt⟩

local notation "dd" => dot_S5000x64_S64x32_S5000x32_1_0_0_1_n_n

/-- The body's arithmetic at an entry of the block: the sum over the contracted axis of the products (a change of float
    format is the identity, the accumulator is zero). -/
theorem pay_apply (x0 : Vec Ideal S5000x64 .f32) (x1 : Vec Ideal S64x32 .f32) (j : S5000x32.Idx) :
    k3_pay1 x0 x1 j = ∑ k : Fin 64, x0 (brow j k) * x1 (bcol j k) := by
  unfold k3_pay1
  simp only [shapeCast_self]
  refine (Ideal.matmul_constant_zero_apply dot_S5000x64_S64x32_S5000x32_1_0_0_1_n_n none _ _ j).trans ?_
  rw [← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : (dot_S5000x64_S64x32_S5000x32_1_0_0_1_n_n).lhsIdx j ((ValueIdx.contrEquiv1 dot_S5000x64_S64x32_S5000x32_1_0_0_1_n_n 64 rfl rfl).symm k) = brow j k :=
    funext fun a => Fin.ext (by
      match a with
      | ⟨0, _⟩ =>
        show ((dot_S5000x64_S64x32_S5000x32_1_0_0_1_n_n).lhsIdx j _ 0).val = (j 0).val
        unfold DotDims.lhsIdx
        rw [dif_neg (show ¬(0 : Fin S5000x64.rank) ∈ (dot_S5000x64_S64x32_S5000x32_1_0_0_1_n_n).lhsBatch by decide),
          dif_pos (show (0 : Fin S5000x64.rank) ∈ (dot_S5000x64_S64x32_S5000x32_1_0_0_1_n_n).lhsNonContracting by decide)]
        rfl
      | ⟨1, _⟩ => exact ((dot_S5000x64_S64x32_S5000x32_1_0_0_1_n_n).lhsIdx_val_of_single rfl j _).trans hk)
  have er : (dot_S5000x64_S64x32_S5000x32_1_0_0_1_n_n).rhsIdx j ((ValueIdx.contrEquiv1 dot_S5000x64_S64x32_S5000x32_1_0_0_1_n_n 64 rfl rfl).symm k) = bcol j k :=
    funext fun a => Fin.ext (by
      match a with
      | ⟨0, _⟩ => exact ((dot_S5000x64_S64x32_S5000x32_1_0_0_1_n_n).rhsIdx_val_of_single rfl j _).trans hk
      | ⟨1, _⟩ =>
        show ((dot_S5000x64_S64x32_S5000x32_1_0_0_1_n_n).rhsIdx j _ 1).val = (j 1).val
        unfold DotDims.rhsIdx
        rw [dif_neg (show ¬(1 : Fin S64x32.rank) ∈ (dot_S5000x64_S64x32_S5000x32_1_0_0_1_n_n).rhsBatch by decide),
          dif_pos (show (1 : Fin S64x32.rank) ∈ (dot_S5000x64_S64x32_S5000x32_1_0_0_1_n_n).rhsNonContracting by decide)]
        rfl)
  show x0 ((dot_S5000x64_S64x32_S5000x32_1_0_0_1_n_n).lhsIdx j _) * x1 ((dot_S5000x64_S64x32_S5000x32_1_0_0_1_n_n).rhsIdx j _) = _
  rw [el, er]

theorem hz : (![0, 0] : Fin 2 → Nat) = fun _ => 0 := funext fun a => by fin_cases a <;> rfl

/-- The printed index maps over the grid: the rows' window and the result's window sit at block `t` of the row axis and
    block 0 of the column axis; the weights' window never moves. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point `t` writes back is block `t` of the product of the two operand arrays as the region finds them. -/
theorem flushed_eq (c : Dev nD) (t : Fin cfg3.N) :
    (dat3 V c).flushed 2 t = ((cfg3.win 2).blk t).view.read (Elt Ideal)
      (prod (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S5000x64) hz, View.ld_unit_zero (S := S64x32) hz]
  obtain ⟨e0, e1, e2, e3, e4, e5⟩ := idx_facts t
  funext j
  refine (pay_apply _ _ j).trans ?_
  show _ = prod (V c (Pipeline.arrRef spec3 0)) (V c (Pipeline.arrRef spec3 1)) (((cfg3.win 2).blk t).view.emb j)
  unfold prod
  refine Finset.sum_congr rfl fun k _ => ?_
  have h0 : iblk3 V c 0 t (brow j k)
      = (V c (Pipeline.arrRef spec3 0) : S100000x64.Idx → Elt Ideal .f32) (lrow (((cfg3.win 2).blk t).view.emb j) k) := by
    show V c (Pipeline.arrRef spec3 0) (((cfg3.win 0).blk t).view.emb (brow j k)) = _
    refine congrArg _ (funext fun a => Fin.ext ?_)
    match a with
    | ⟨0, _⟩ =>
      show win3_0.index t (0 : Fin 2) * 5000 + 1 * (j 0).val = win3_2.index t (0 : Fin 2) * 5000 + 1 * (j 0).val
      omega
    | ⟨1, _⟩ =>
      show win3_0.index t (1 : Fin 2) * 64 + 1 * k.val = k.val
      omega
  have h1 : iblk3 V c 1 t (bcol j k)
      = (V c (Pipeline.arrRef spec3 1) : S64x32.Idx → Elt Ideal .f32) (wcol (((cfg3.win 2).blk t).view.emb j) k) := by
    show V c (Pipeline.arrRef spec3 1) (((cfg3.win 1).blk t).view.emb (bcol j k)) = _
    refine congrArg _ (funext fun a => Fin.ext ?_)
    match a with
    | ⟨0, _⟩ =>
      show win3_1.index t (0 : Fin 2) * 64 + 1 * k.val = k.val
      omega
    | ⟨1, _⟩ =>
      show win3_1.index t (1 : Fin 2) * 32 + 1 * (j 1).val = win3_2.index t (1 : Fin 2) * 32 + 1 * (j 1).val
      omega
  rw [h0, h1]

/-- An index of the result array is in point `t`'s block iff each coordinate is in the block's range on its axis. -/
theorem mem_blk (t : Fin cfg3.N) (i : S100000x32.Idx) :
    i ∈ ((cfg3.win 2).blk t).view.set ↔ ∀ a : Fin 2, win3_2.index t a * S5000x32.size a ≤ (i a).val
      ∧ (i a).val < win3_2.index t a * S5000x32.size a + S5000x32.size a := by
  show i ∈ ((View.whole main_v50).slice (win3_2.rect t)).set ↔ _
  rw [View.set_slice_whole, Rect.mem_set_unit]
  exact Iff.rfl

/-- Every index of the result array is in the block of the point that owns its row, `row / 5000`. -/
theorem cover (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : grid3.N = 20 := N_3
  let t : Fin cfg3.N := ⟨(i 0).val / 5000, by show (i 0).val / 5000 < grid3.N; omega⟩
  obtain ⟨e0, e1, e2, e3, e4, e5⟩ := idx_facts t
  have ht : t.val = (i 0).val / 5000 := rfl
  refine ⟨t, flush3_2 t, ?_⟩
  rw [mem_blk]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 32 ≤ (i 1).val ∧ (i 1).val < win3_2.index t (1 : Fin 2) * 32 + 32
    omega

/-- THE RESULT ARRAY after the region: the product of its two operand arrays as the region finds them. -/
theorem final (c : Dev nD) :
    (dat3 V c).arrAt 2 cfg3.N = prod (V c (Pipeline.arrRef spec3 0)) (V c (Pipeline.arrRef spec3 1)) :=
  (dat3 V c).arrAt_eq_of_cover 2 _ (fun t _ => flushed_eq V c t) cover

end Cert.KernelIdeal.OutputProjection

end
-- ==== Proof.SymNorm.lean ====
/-
  Symmetric degree normalisation of a sum-aggregation over edges, in its two arrangements.

  An edge list is two integer arrays `dst`, `src` of length 1600000 over 100000 nodes. The degree of node `u` is the
  number of edges whose `dst` entry, read as a signed integer, is exactly `u`; an entry outside `[0, 100000)` belongs to
  no node (a scatter drops it). A gather reads a node index signed, wraps a negative one by adding 100000, and clamps into
  `[0, 99999]`.

  * `scaledAgg`: every row of `h` is first multiplied by `s = (deg + 1)^(-1/2)` of its own node, the rows are gathered
    at `src` and summed into the rows named by `dst`, and row `u` of the sum is multiplied by `s u` again.
  * `edgeAgg`: the rows of `h` gathered at `src` are divided, edge by edge, by
    `sqrt ((deg (dst e) + 1) * (deg (src e) + 1))` and then summed into the rows named by `dst`.

  They are the same array on the extended reals: an edge contributes to row `u` only when its `dst` entry is `u`, where
  the gathered `deg (dst e)` is `deg u`; `deg + 1` is a positive real, so `sqrt (a * b) = sqrt a * sqrt b` and the
  quotient is the product with both inverse roots; and a nonnegative real factor moves across an extended-real sum.
-/
import proofs.«129152_j49855980372316_2_alg».proof.KernelIdeal
import proofs.«129152_j49855980372316_2_alg».proof.ReferenceIdeal
import Idealize.ShloMosaic.PureOps.Ideal
import Idealize.ShloMosaic.PureOps.Ideal.Laws
import Idealize.ShloMosaic.Lib.ValueIdx

noncomputable section

namespace Cert.SymNorm

open Idealize.ShloMosaic

section
variable [Cert.KernelIdeal.Facts₀] [Cert.ReferenceIdeal.Facts₀]

/-! ## The pre- and post-scaled arrangement -/

namespace Scaled
open Cert.KernelIdeal Cert.KernelIdeal.Facts₀

/-- The degree of every node: ones summed into the entries named by `dst`. -/
def deg (dst : IVec S1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The scale of every node, `(deg + 1)^(-1/2)`. -/
def scale (dst : IVec S1600000 32) : FVec Ideal S100000 .f32 :=
  Host.rsqrt (addf (deg dst) (broadcastInDim S100000 ![] bcast_S_S100000 (constant (F := Ideal) S_ .f32 0x3F800000#32)))

/-- The scale spread along the 64 features of a node's row. -/
def scaleRows (dst : IVec S1600000 32) : FVec Ideal S100000x64 .f32 :=
  broadcastInDim S100000x64 ![0, 1] bcast_S100000x1_S100000x64_0_1
    (broadcastInDim S100000x1 ![0] bcast_S100000_S100000x1_0 (scale dst))

/-- A node index with a negative one wrapped by adding the node count. -/
def wrap (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- Scale, gather at `src`, sum into `dst`, scale again. -/
def agg (h : FVec Ideal S100000x64 .f32) (dst src : IVec S1600000 32) : FVec Ideal S100000x64 .f32 :=
  mulf
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 (mulf h (scaleRows dst))
        (broadcastInDim S1600000x1 ![0] bcast_S1600000_S1600000x1_0 (wrap src))))
    (scaleRows dst)

end Scaled

/-! ## The per-edge arrangement -/

namespace PerEdge
open Cert.ReferenceIdeal Cert.ReferenceIdeal.Facts₀

/-- The degree of every node: ones summed into the entries named by `dst`. -/
def deg (dst : IVec S1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- A node index with a negative one wrapped by adding the node count. -/
def wrap (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- `deg + 1` gathered at one end of every edge. -/
def degAt (dst v : IVec S1600000 32) : FVec Ideal S1600000 .f32 :=
  addf (Host.gather gather_S100000_S1600000x1_S1600000_n_0_n_n_0_1_1 (deg dst)
      (broadcastInDim S1600000x1 ![0] bcast_S1600000_S1600000x1_0 (wrap v)))
    (broadcastInDim S1600000 ![] bcast_S_S1600000 (constant (F := Ideal) S_ .f32 0x3F800000#32))

/-- The normaliser of every edge, `sqrt ((deg (dst e) + 1) * (deg (src e) + 1))`. -/
def norm (dst src : IVec S1600000 32) : FVec Ideal S1600000 .f32 :=
  Host.sqrt (mulf (degAt dst dst) (degAt dst src))

/-- Gather at `src`, divide edge by edge by the normaliser, sum into `dst`. -/
def agg (h : FVec Ideal S100000x64 .f32) (dst src : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.divf (Host.gather gather_S100000x64_S1600000x1_S1600000x64_1_0_n_n_0_1_164 h
        (broadcastInDim S1600000x1 ![0] bcast_S1600000_S1600000x1_0 (wrap src)))
      (broadcastInDim S1600000x64 ![0, 1] bcast_S1600000x1_S1600000x64_0_1
        (broadcastInDim S1600000x1 ![0] bcast_S1600000_S1600000x1_0 (norm dst src))))

end PerEdge

end

end Cert.SymNorm

end
-- ==== Proof.KernelValue.lean ====
/-
  The result of the idealized program as ONE function of its five argument arrays.

  The run's last boundary (`Gen.W7`) is a fold: three stretches of host operations and four regions, each stretch the
  composition of its operations and each region its result array at the closed form of the region's module. Read back buffer by
  buffer, the fold gives, with `dst` and `src` the two rows of the edge list:
    state0 = features × input weights,
    state(l+1) = positive part of ((scaled aggregation of state l over the edges) + state l) × layer weights l,   l = 0, 1,
    result = state2 × output weights.
-/
import proofs.«129152_j49855980372316_2_alg».proof.Proof.KernelRun
import proofs.«129152_j49855980372316_2_alg».proof.Proof.InputProjection
import proofs.«129152_j49855980372316_2_alg».proof.Proof.CombineFirst
import proofs.«129152_j49855980372316_2_alg».proof.Proof.CombineSecond
import proofs.«129152_j49855980372316_2_alg».proof.Proof.OutputProjection
import proofs.«129152_j49855980372316_2_alg».proof.Proof.SymNorm
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo
open Cert

/-! ## The pieces of the arguments the program cuts out -/

/-- The first row of the edge list: the receiving node of every edge. -/
def dstOf (x1 : (⟨S2x1600000, .i32⟩ : BufTy).Contents (Elt Ideal)) : IVec S1600000 32 :=
  shapeCast S1600000 (extractStridedSlice S1x1600000 ![0, 0] x1 slices_S2x1600000_S1x1600000_0_0) shapeCasts_S1x1600000_S1600000
/-- The second row of the edge list: the node every edge gathers from. -/
def srcOf (x1 : (⟨S2x1600000, .i32⟩ : BufTy).Contents (Elt Ideal)) : IVec S1600000 32 :=
  shapeCast S1600000 (extractStridedSlice S1x1600000 ![1, 0] x1 slices_S2x1600000_S1x1600000_1_0) shapeCasts_S1x1600000_S1600000
/-- The first layer's weights. -/
def weights0 (x3 : (⟨S2x64x64, .f32⟩ : BufTy).Contents (Elt Ideal)) : FVec Ideal S64x64 .f32 :=
  shapeCast S64x64 (extractStridedSlice S1x64x64 ![0, 0, 0] x3 slices_S2x64x64_S1x64x64_0_0_0) shapeCasts_S1x64x64_S64x64
/-- The second layer's weights. -/
def weights1 (x3 : (⟨S2x64x64, .f32⟩ : BufTy).Contents (Elt Ideal)) : FVec Ideal S64x64 .f32 :=
  shapeCast S64x64 (extractStridedSlice S1x64x64 ![1, 0, 0] x3 slices_S2x64x64_S1x64x64_1_0_0) shapeCasts_S1x64x64_S64x64

/-! ## The node state after each region -/

def state0 (x0 : (⟨S100000x128, .f32⟩ : BufTy).Contents (Elt Ideal)) (x2 : (⟨S128x64, .f32⟩ : BufTy).Contents (Elt Ideal)) :
    FVec Ideal S100000x64 .f32 :=
  InputProjection.prod x0 x2
def state1 (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S2x64x64, .f32⟩ : BufTy).Contents (Elt Ideal)) : FVec Ideal S100000x64 .f32 :=
  CombineFirst.combine (SymNorm.Scaled.agg (state0 x0 x2) (dstOf x1) (srcOf x1)) (state0 x0 x2) (weights0 x3)
def state2 (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S2x64x64, .f32⟩ : BufTy).Contents (Elt Ideal)) : FVec Ideal S100000x64 .f32 :=
  CombineSecond.combine (SymNorm.Scaled.agg (state1 x0 x1 x2 x3) (dstOf x1) (srcOf x1)) (state1 x0 x1 x2 x3) (weights1 x3)
/-- The program's result. -/
def result (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S2x64x64, .f32⟩ : BufTy).Contents (Elt Ideal))
    (x4 : (⟨S64x32, .f32⟩ : BufTy).Contents (Elt Ideal)) : FVec Ideal S100000x32 .f32 :=
  OutputProjection.prod (state2 x0 x1 x2 x3) x4

variable (m : (ℓ : Loc nD τ sig) → Buf (Elt Ideal) ℓ) (ρ : Dev nD → PrngReg)

/-! ## After the first stretch of host operations: the edge rows, the scale, the arguments untouched -/

theorem W0_arg (c : Dev nD) (b : Ref sig .tc) : W0 m ρ c (Proc.devRef .tc b) = m ((c : Thread nD τ).loc b) := rfl

theorem W1_v1 (c : Dev nD) : W1 m ρ c (Proc.devRef .tc main_v1) = dstOf (m ((c : Thread nD τ).loc main_arg1)) := by
  show StableHlo.after hostOps0 (W0 m ρ c) (Proc.devRef .tc main_v1) = _
  dsimp only [hostOps0]
  after_results
  rfl
theorem W1_v3 (c : Dev nD) : W1 m ρ c (Proc.devRef .tc main_v3) = srcOf (m ((c : Thread nD τ).loc main_arg1)) := by
  show StableHlo.after hostOps0 (W0 m ρ c) (Proc.devRef .tc main_v3) = _
  dsimp only [hostOps0]
  after_results
  rfl
theorem W1_v10 (c : Dev nD) : W1 m ρ c (Proc.devRef .tc main_v10) = SymNorm.Scaled.scale (dstOf (m ((c : Thread nD τ).loc main_arg1))) := by
  show StableHlo.after hostOps0 (W0 m ρ c) (Proc.devRef .tc main_v10) = _
  dsimp only [hostOps0]
  after_results
  rfl
theorem W1_arg0 (c : Dev nD) : W1 m ρ c (Proc.devRef .tc main_arg0) = (m ((c : Thread nD τ).loc main_arg0)) := by
  show StableHlo.after hostOps0 (W0 m ρ c) (Proc.devRef .tc main_arg0) = _
  dsimp only [hostOps0]
  after_results
theorem W1_arg2 (c : Dev nD) : W1 m ρ c (Proc.devRef .tc main_arg2) = (m ((c : Thread nD τ).loc main_arg2)) := by
  show StableHlo.after hostOps0 (W0 m ρ c) (Proc.devRef .tc main_arg2) = _
  dsimp only [hostOps0]
  after_results
theorem W1_arg3 (c : Dev nD) : W1 m ρ c (Proc.devRef .tc main_arg3) = (m ((c : Thread nD τ).loc main_arg3)) := by
  show StableHlo.after hostOps0 (W0 m ρ c) (Proc.devRef .tc main_arg3) = _
  dsimp only [hostOps0]
  after_results
theorem W1_arg4 (c : Dev nD) : W1 m ρ c (Proc.devRef .tc main_arg4) = (m ((c : Thread nD τ).loc main_arg4)) := by
  show StableHlo.after hostOps0 (W0 m ρ c) (Proc.devRef .tc main_arg4) = _
  dsimp only [hostOps0]
  after_results

/-! ## After the first region: the input projection -/

theorem W2_v11 (c : Dev nD) : W2 m ρ c (Proc.devRef .tc main_v11) = state0 (m ((c : Thread nD τ).loc main_arg0)) (m ((c : Thread nD τ).loc main_arg2)) := by
  refine (W2_arr m ρ c 2).trans ((InputProjection.final (V1 m ρ) c).trans ?_)
  show InputProjection.prod (W1 m ρ c (Proc.devRef .tc main_arg0)) (W1 m ρ c (Proc.devRef .tc main_arg2)) = _
  rw [W1_arg0, W1_arg2]; rfl
theorem W2_v1 (c : Dev nD) : W2 m ρ c (Proc.devRef .tc main_v1) = dstOf (m ((c : Thread nD τ).loc main_arg1)) :=
  (W2_of_ne m ρ c main_v1 (by decide)).trans (W1_v1 m ρ c)
theorem W2_v3 (c : Dev nD) : W2 m ρ c (Proc.devRef .tc main_v3) = srcOf (m ((c : Thread nD τ).loc main_arg1)) :=
  (W2_of_ne m ρ c main_v3 (by decide)).trans (W1_v3 m ρ c)
theorem W2_v10 (c : Dev nD) : W2 m ρ c (Proc.devRef .tc main_v10) = SymNorm.Scaled.scale (dstOf (m ((c : Thread nD τ).loc main_arg1))) :=
  (W2_of_ne m ρ c main_v10 (by decide)).trans (W1_v10 m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg4 (c : Dev nD) : W2 m ρ c (Proc.devRef .tc main_arg4) = (m ((c : Thread nD τ).loc main_arg4)) :=
  (W2_of_ne m ρ c main_arg4 (by decide)).trans (W1_arg4 m ρ c)

/-! ## After the second stretch: the first scaled aggregation and the first layer's weights -/

set_option maxHeartbeats 4000000 in
theorem W3_v27 (c : Dev nD) : W3 m ρ c (Proc.devRef .tc main_v27) = SymNorm.Scaled.agg (state0 (m ((c : Thread nD τ).loc main_arg0)) (m ((c : Thread nD τ).loc main_arg2))) (dstOf (m ((c : Thread nD τ).loc main_arg1))) (srcOf (m ((c : Thread nD τ).loc main_arg1))) := by
  show StableHlo.after hostOps1 (W2 m ρ c) (Proc.devRef .tc main_v27) = _
  dsimp only [hostOps1]
  after_results_simp
  rw [W2_v11, W2_v10, W2_v1, W2_v3]
  rfl
theorem W3_v29 (c : Dev nD) : W3 m ρ c (Proc.devRef .tc main_v29) = weights0 (m ((c : Thread nD τ).loc main_arg3)) := by
  show StableHlo.after hostOps1 (W2 m ρ c) (Proc.devRef .tc main_v29) = _
  dsimp only [hostOps1]
  after_results
  rw [W2_arg3]
  rfl
theorem W3_v11 (c : Dev nD) : W3 m ρ c (Proc.devRef .tc main_v11) = state0 (m ((c : Thread nD τ).loc main_arg0)) (m ((c : Thread nD τ).loc main_arg2)) := by
  show StableHlo.after hostOps1 (W2 m ρ c) (Proc.devRef .tc main_v11) = _
  dsimp only [hostOps1]
  after_results
  exact W2_v11 m ρ c
theorem W3_v1 (c : Dev nD) : W3 m ρ c (Proc.devRef .tc main_v1) = dstOf (m ((c : Thread nD τ).loc main_arg1)) := by
  show StableHlo.after hostOps1 (W2 m ρ c) (Proc.devRef .tc main_v1) = _
  dsimp only [hostOps1]
  after_results
  exact W2_v1 m ρ c
theorem W3_v3 (c : Dev nD) : W3 m ρ c (Proc.devRef .tc main_v3) = srcOf (m ((c : Thread nD τ).loc main_arg1)) := by
  show StableHlo.after hostOps1 (W2 m ρ c) (Proc.devRef .tc main_v3) = _
  dsimp only [hostOps1]
  after_results
  exact W2_v3 m ρ c
theorem W3_v10 (c : Dev nD) : W3 m ρ c (Proc.devRef .tc main_v10) = SymNorm.Scaled.scale (dstOf (m ((c : Thread nD τ).loc main_arg1))) := by
  show StableHlo.after hostOps1 (W2 m ρ c) (Proc.devRef .tc main_v10) = _
  dsimp only [hostOps1]
  after_results
  exact W2_v10 m ρ c
theorem W3_arg3 (c : Dev nD) : W3 m ρ c (Proc.devRef .tc main_arg3) = (m ((c : Thread nD τ).loc main_arg3)) := by
  show StableHlo.after hostOps1 (W2 m ρ c) (Proc.devRef .tc main_arg3) = _
  dsimp only [hostOps1]
  after_results
  exact W2_arg3 m ρ c
theorem W3_arg4 (c : Dev nD) : W3 m ρ c (Proc.devRef .tc main_arg4) = (m ((c : Thread nD τ).loc main_arg4)) := by
  show StableHlo.after hostOps1 (W2 m ρ c) (Proc.devRef .tc main_arg4) = _
  dsimp only [hostOps1]
  after_results
  exact W2_arg4 m ρ c

/-! ## After the second region: the first layer -/

theorem W4_v30 (c : Dev nD) : W4 m ρ c (Proc.devRef .tc main_v30) = state1 (m ((c : Thread nD τ).loc main_arg0)) (m ((c : Thread nD τ).loc main_arg1)) (m ((c : Thread nD τ).loc main_arg2)) (m ((c : Thread nD τ).loc main_arg3)) := by
  refine (W4_arr m ρ c 3).trans ((CombineFirst.final (V3 m ρ) c).trans ?_)
  show CombineFirst.combine (W3 m ρ c (Proc.devRef .tc main_v27)) (W3 m ρ c (Proc.devRef .tc main_v11)) (W3 m ρ c (Proc.devRef .tc main_v29)) = _
  rw [W3_v27, W3_v11, W3_v29]; rfl
theorem W4_v1 (c : Dev nD) : W4 m ρ c (Proc.devRef .tc main_v1) = dstOf (m ((c : Thread nD τ).loc main_arg1)) :=
  (W4_of_ne m ρ c main_v1 (by decide)).trans (W3_v1 m ρ c)
theorem W4_v3 (c : Dev nD) : W4 m ρ c (Proc.devRef .tc main_v3) = srcOf (m ((c : Thread nD τ).loc main_arg1)) :=
  (W4_of_ne m ρ c main_v3 (by decide)).trans (W3_v3 m ρ c)
theorem W4_v10 (c : Dev nD) : W4 m ρ c (Proc.devRef .tc main_v10) = SymNorm.Scaled.scale (dstOf (m ((c : Thread nD τ).loc main_arg1))) :=
  (W4_of_ne m ρ c main_v10 (by decide)).trans (W3_v10 m ρ c)
theorem W4_arg3 (c : Dev nD) : W4 m ρ c (Proc.devRef .tc main_arg3) = (m ((c : Thread nD τ).loc main_arg3)) :=
  (W4_of_ne m ρ c main_arg3 (by decide)).trans (W3_arg3 m ρ c)
theorem W4_arg4 (c : Dev nD) : W4 m ρ c (Proc.devRef .tc main_arg4) = (m ((c : Thread nD τ).loc main_arg4)) :=
  (W4_of_ne m ρ c main_arg4 (by decide)).trans (W3_arg4 m ρ c)

/-! ## After the third stretch: the second scaled aggregation and the second layer's weights -/

set_option maxHeartbeats 4000000 in
theorem W5_v46 (c : Dev nD) : W5 m ρ c (Proc.devRef .tc main_v46) = SymNorm.Scaled.agg (state1 (m ((c : Thread nD τ).loc main_arg0)) (m ((c : Thread nD τ).loc main_arg1)) (m ((c : Thread nD τ).loc main_arg2)) (m ((c : Thread nD τ).loc main_arg3))) (dstOf (m ((c : Thread nD τ).loc main_arg1))) (srcOf (m ((c : Thread nD τ).loc main_arg1))) := by
  show StableHlo.after hostOps2 (W4 m ρ c) (Proc.devRef .tc main_v46) = _
  dsimp only [hostOps2]
  after_results_simp
  rw [W4_v30, W4_v10, W4_v1, W4_v3]
  rfl
theorem W5_v48 (c : Dev nD) : W5 m ρ c (Proc.devRef .tc main_v48) = weights1 (m ((c : Thread nD τ).loc main_arg3)) := by
  show StableHlo.after hostOps2 (W4 m ρ c) (Proc.devRef .tc main_v48) = _
  dsimp only [hostOps2]
  after_results
  rw [W4_arg3]
  rfl
theorem W5_v30 (c : Dev nD) : W5 m ρ c (Proc.devRef .tc main_v30) = state1 (m ((c : Thread nD τ).loc main_arg0)) (m ((c : Thread nD τ).loc main_arg1)) (m ((c : Thread nD τ).loc main_arg2)) (m ((c : Thread nD τ).loc main_arg3)) := by
  show StableHlo.after hostOps2 (W4 m ρ c) (Proc.devRef .tc main_v30) = _
  dsimp only [hostOps2]
  after_results
  exact W4_v30 m ρ c
theorem W5_arg4 (c : Dev nD) : W5 m ρ c (Proc.devRef .tc main_arg4) = (m ((c : Thread nD τ).loc main_arg4)) := by
  show StableHlo.after hostOps2 (W4 m ρ c) (Proc.devRef .tc main_arg4) = _
  dsimp only [hostOps2]
  after_results
  exact W4_arg4 m ρ c

/-! ## After the third region: the second layer -/

theorem W6_v49 (c : Dev nD) : W6 m ρ c (Proc.devRef .tc main_v49) = state2 (m ((c : Thread nD τ).loc main_arg0)) (m ((c : Thread nD τ).loc main_arg1)) (m ((c : Thread nD τ).loc main_arg2)) (m ((c : Thread nD τ).loc main_arg3)) := by
  refine (W6_arr m ρ c 3).trans ((CombineSecond.final (V5 m ρ) c).trans ?_)
  show CombineSecond.combine (W5 m ρ c (Proc.devRef .tc main_v46)) (W5 m ρ c (Proc.devRef .tc main_v30)) (W5 m ρ c (Proc.devRef .tc main_v48)) = _
  rw [W5_v46, W5_v30, W5_v48]; rfl
theorem W6_arg4 (c : Dev nD) : W6 m ρ c (Proc.devRef .tc main_arg4) = (m ((c : Thread nD τ).loc main_arg4)) :=
  (W6_of_ne m ρ c main_arg4 (by decide)).trans (W5_arg4 m ρ c)

/-! ## After the fourth region: the result -/

/-- The last boundary's contents at the result buffer are the composed function of the five arguments. -/
theorem W7_v50 (c : Dev nD) : W7 m ρ c (Proc.devRef .tc main_v50) = result (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((OutputProjection.final (V6 m ρ) c).trans ?_)
  show OutputProjection.prod (W6 m ρ c (Proc.devRef .tc main_v49)) (W6 m ρ c (Proc.devRef .tc main_arg4)) = _
  rw [W6_v49, W6_arg4]; rfl

/-- The run of the idealized program: the result array ends at `result` of the arguments, the arguments as launched. -/
theorem run_result : θ_run defs (onTc (τ := τ) (main (F := Ideal))) ⟨m, fun _ => 0, ρ⟩ (fun r => ∀ c : Dev nD,
      r.2.mem ((c.tc : Thread nD τ).loc main_v50) = result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (W7_v50 m ρ c), (h c).2⟩) (run m ρ)

end Cert.KernelIdeal.Result

end
-- ==== Proof.SymNormEq.lean ====
/-
  The two arrangements of the symmetric degree normalisation are one array on the extended reals
  (`Cert.SymNorm.Scaled.agg` and `Cert.SymNorm.PerEdge.agg`; the module that defines them says why).

  First the two gathers and the row scatter read at an index, stated over arbitrary extents so that nothing is evaluated
  along an axis; then the extended-real arithmetic (a nonnegative real factor crosses a finite sum; a quotient by
  `sqrt (a * b)` is the product with both inverse roots); then every operator of the two arrangements at an index; last
  the equality, summand by summand over the one set of edges that land in a row.
-/
import proofs.«129152_j49855980372316_2_alg».proof.Proof.SymNorm
import Idealize.ShloMosaic.Lib.Pipeline.Value

noncomputable section

namespace Cert.SymNorm

open Idealize.ShloMosaic Idealize.ShloMosaic.ValueIdx

/-! ## A gather of rows at a column of start indices, read at an index -/

section Index
variable {α : Type}

/-- The dimension numbers of a gather of whole rows of an operand `[N, K]` at start indices `[E, 1]`: result `[E, K]`. -/
abbrev rowsGather (N K E : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Row `e`, column `f` of the gathered rows is the operand at column `f` of the row named by start index `e`, read signed
    and clamped into `[0, N - 1]`. -/
theorem rowsGather_apply {N K E w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (f : Fin K) :
    Host.gather (rowsGather N K E wf) x idx (ix2 e f)
      = x (ix2 ⟨min (idx (ix2 e 0)).toInt.toNat (N - 1), by omega⟩ f) := by
  unfold Host.gather
  congr 1
  funext a
  refine Fin.ext ?_
  match a with
  | ⟨0, _⟩ =>
    show (rowsGather N K E wf).start (ix2 e f) idx 0 + (rowsGather N K E wf).batchCoord (ix2 e f) 0
      + (rowsGather N K E wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N K E wf).startIndexMap from List.mem_singleton.mpr rfl)]
    have hsi : (rowsGather N K E wf).siIdx (ix2 e f) ⟨List.idxOf (0 : Fin 2) (rowsGather N K E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsGather N K E wf).start (ix2 e f) idx 1 + (rowsGather N K E wf).batchCoord (ix2 e f) 1
      + (rowsGather N K E wf).offCoord (ix2 e f) 1 = f.val
    rw [GatherDims.batchCoord_eq_zero _ _ _ List.not_mem_nil]
    unfold GatherDims.start GatherDims.offCoord
    rw [dif_neg (show (1 : Fin 2) ∉ ([0] : List (Fin 2)) by decide),
      dif_pos ((GatherDims.mem_sKept _ _).mpr ⟨show (1 : Fin 2) ∉ ([0] : List (Fin 2)) by decide, List.not_mem_nil⟩)]
    simp only [Nat.add_zero, Nat.zero_add]
    rfl

/-- The same, with the row named: any `n` whose value is the clamped start index. -/
theorem rowsGather_apply' {N K E w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (f : Fin K) (n : Fin N)
    (hn : n.val = min (idx (ix2 e 0)).toInt.toNat (N - 1)) :
    Host.gather (rowsGather N K E wf) x idx (ix2 e f) = x (ix2 n f) :=
  (rowsGather_apply hN wf x idx e f).trans (congrArg (fun m => x (ix2 m f)) (Fin.ext hn.symm))

end Index

section Index2
variable {α : Type}

/-- The dimension numbers of a gather of single entries of an operand `[N]` at start indices `[E, 1]`: result `[E]`. -/
abbrev entriesGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered entries is the operand at start index `e`, read signed and clamped into `[0, N - 1]`. -/
theorem entriesGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesGather N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (entriesGather N E wf).start (ix1 e) idx 0 + (entriesGather N E wf).batchCoord (ix1 e) 0
    + (entriesGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesGather N E wf).startIndexMap from List.mem_singleton.mpr rfl)]
  have hsi : (entriesGather N E wf).siIdx (ix1 e) ⟨List.idxOf (0 : Fin 1) (entriesGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The same, with the entry named: any `n` whose value is the clamped start index. -/
theorem entriesGather_apply' {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) (n : Fin N)
    (hn : n.val = min (idx (ix2 e 0)).toInt.toNat (N - 1)) :
    Host.gather (entriesGather N E wf) x idx (ix1 e) = x (ix1 n) :=
  (entriesGather_apply hN wf x idx e).trans (congrArg (fun m => x (ix1 m)) (Fin.ext hn.symm))

/-- The dimension numbers of a scatter of rows `[E, K]` into an operand `[N, K]` at scatter indices `[E, 1]`. -/
abbrev rowsScatter (N K E : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- Update `(e, f')` lands at `(u, f)` only when scatter index `e`, read signed, is `u`, and `f' = f`. -/
theorem rowsScatter_some {N K E w : Nat}
    (wf : ScatterDims.WF ⟨2, ![N, K]⟩ ⟨2, ![E, 1]⟩ ⟨2, ![E, K]⟩ [1] [0] [0] 1)
    (idx : IVec ⟨2, ![E, 1]⟩ w) (e : Fin E) (f' : Fin K) (u : Fin N) (f : Fin K)
    (h : (rowsScatter N K E wf).resultIdx? (ix2 e f') idx = some (ix2 u f)) :
    (idx (ix2 e 0)).toInt = (u.val : Int) ∧ f' = f := by
  have hs0 : (rowsScatter N K E wf).start (ix2 e f') idx 0 = (idx (ix2 e 0)).toInt := by
    unfold ScatterDims.start
    rw [dif_pos (show (0 : Fin 2) ∈ (rowsScatter N K E wf).scatterDimsToOperandDims from List.mem_singleton.mpr rfl)]
    have hsi : (rowsScatter N K E wf).siIdx (ix2 e f') ⟨List.idxOf (0 : Fin 2) (rowsScatter N K E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (rowsScatter N K E wf).window (ix2 e f') 0 = 0 := by
    unfold ScatterDims.window
    rw [dif_neg (show (0 : Fin 2) ∉ (rowsScatter N K E wf).sKept from
      (show (0 : Fin 2) ∉ (List.finRange 2).filter (· ∉ ([0] : List (Fin 2))) by decide))]
  have hs1 : (rowsScatter N K E wf).start (ix2 e f') idx 1 = 0 := by
    unfold ScatterDims.start
    rw [dif_neg (show (1 : Fin 2) ∉ ([0] : List (Fin 2)) by decide)]
  have hw1 : (rowsScatter N K E wf).window (ix2 e f') 1 = f'.val := by
    unfold ScatterDims.window
    rw [dif_pos (show (1 : Fin 2) ∈ (rowsScatter N K E wf).sKept from
      (show (1 : Fin 2) ∈ (List.finRange 2).filter (· ∉ ([0] : List (Fin 2))) by decide))]
    rfl
  unfold ScatterDims.resultIdx? at h
  split at h
  · rename_i hall
    have h2 := Option.some.inj h
    have h0 : ((rowsScatter N K E wf).start (ix2 e f') idx 0 + (rowsScatter N K E wf).window (ix2 e f') 0).toNat = u.val :=
      congrArg Fin.val (congrFun h2 0)
    have h1 : ((rowsScatter N K E wf).start (ix2 e f') idx 1 + (rowsScatter N K E wf).window (ix2 e f') 1).toNat = f.val :=
      congrArg Fin.val (congrFun h2 1)
    have ha := (hall 0).1
    rw [hs0, hw0] at h0 ha
    rw [hs1, hw1] at h1
    exact ⟨by omega, Fin.ext (by omega)⟩
  · exact absurd h (by simp)

end Index2

section Spread
variable {α : Type}

/-- A vector spread as a column reads its entry. -/
theorem column_apply {E : Nat} (hb : (⟨1, ![E]⟩ : Shape).BroadcastsInDim ⟨2, ![E, 1]⟩ ![0])
    (x : (⟨1, ![E]⟩ : Shape).Idx → α) (e : Fin E) (c : Fin 1) :
    broadcastInDim ⟨2, ![E, 1]⟩ ![0] hb x (ix2 e c) = x (ix1 e) := by
  refine broadcastInDim_apply _ _ _ _ _ (fun a => ?_)
  obtain rfl : a = 0 := Subsingleton.elim _ _
  show e.val = if E = 1 then 0 else e.val
  have := e.isLt
  split <;> omega

/-- A vector spread as a column and then along `K` features reads its entry in every feature. -/
theorem rows_apply {N K : Nat} (hb : (⟨1, ![N]⟩ : Shape).BroadcastsInDim ⟨2, ![N, 1]⟩ ![0])
    (hb' : (⟨2, ![N, 1]⟩ : Shape).BroadcastsInDim ⟨2, ![N, K]⟩ ![0, 1])
    (x : (⟨1, ![N]⟩ : Shape).Idx → α) (u : Fin N) (f : Fin K) :
    broadcastInDim ⟨2, ![N, K]⟩ ![0, 1] hb' (broadcastInDim ⟨2, ![N, 1]⟩ ![0] hb x) (ix2 u f) = x (ix1 u) := by
  rw [broadcastInDim_apply ![0, 1] hb' _ (ix2 u f) (ix2 u 0) (fun a => ?_), column_apply]
  match a with
  | ⟨0, _⟩ =>
    show u.val = if N = 1 then 0 else u.val
    have := u.isLt
    split <;> omega
  | ⟨1, _⟩ => rfl

end Spread

/-! ## Extended-real arithmetic -/

/-- The word `0x3F800000` is the float one. -/
theorem ofBits_one : Ideal.ofBits .f32 0x3F800000#32 = 1 := by
  simp [Ideal.ofBits, Ideal.ieee, -EReal.coe_mul]; norm_num

/-- A nonnegative real factor moves across a finite sum of extended reals. -/
theorem sum_mul_coe {ι : Type} (s : Finset ι) (x : ι → EReal) (b : ℝ) (hb : 0 ≤ b) :
    (∑ j ∈ s, x j) * (b : EReal) = ∑ j ∈ s, x j * (b : EReal) := by
  classical
  induction s using Finset.induction_on with
  | empty => simp
  | insert a s ha ih =>
    rw [Finset.sum_insert ha, Finset.sum_insert ha,
      EReal.right_distrib_of_nonneg_of_ne_top (EReal.coe_nonneg.mpr hb) (EReal.coe_ne_top b), ih]

/-- The inverse root of a positive real. -/
theorem rsqrt_pos (a : ℝ) (ha : 0 < a) : Ideal.rsqrt (a : EReal) = (((Real.sqrt a)⁻¹ : ℝ) : EReal) := by
  rw [Ideal.rsqrt_coe, if_neg (not_lt.mpr ha.le), if_neg ha.ne']

/-- Dividing by `sqrt (a * b)`, `a` and `b` positive reals, is multiplying by both inverse roots. -/
theorem div_sqrt_mul (x : EReal) (a b : ℝ) (ha : 0 < a) (hb : 0 < b) :
    Ideal.div x (Ideal.sqrt ((a : EReal) * (b : EReal)))
      = x * (((Real.sqrt b)⁻¹ : ℝ) : EReal) * (((Real.sqrt a)⁻¹ : ℝ) : EReal) := by
  have hab : 0 < a * b := mul_pos ha hb
  rw [← EReal.coe_mul, Ideal.sqrt_coe, if_neg (not_lt.mpr hab.le),
    Ideal.div_coe (Real.sqrt_ne_zero'.mpr hab) x, mul_assoc, ← EReal.coe_mul]
  congr 2
  rw [Real.sqrt_mul ha.le, one_div, mul_inv, mul_comm]

/-! ## The two arrangements' operators read at an index -/

section AtIndex
variable [Cert.KernelIdeal.Facts₀] [Cert.ReferenceIdeal.Facts₀]

/-- An accumulating scatter at an index: the operand there plus the updates that land there. -/
theorem scatterAdd_apply {s si su : Shape} {φ : FTy} {w : Nat} (d : ScatterDims s si su) (x : FVec Ideal s φ)
    (idx : IVec si w) (upd : FVec Ideal su φ) (i : s.Idx) :
    Host.scatterAdd d x idx upd i
      = x i + ∑ j ∈ Finset.univ.filter (fun j => d.resultIdx? j idx = some i), upd j := rfl

/-- A quotient at an index. -/
theorem hostDivf_apply {s : Shape} {φ : FTy} (a b : FVec Ideal s φ) (i : s.Idx) :
    Host.divf a b i = Ideal.div (a i) (b i) := rfl

/-- An inverse root at an index. -/
theorem hostRsqrt_apply {s : Shape} {φ : FTy} (a : FVec Ideal s φ) (i : s.Idx) :
    Host.rsqrt a i = Ideal.rsqrt (a i) := rfl

/-- A root at an index. -/
theorem hostSqrt_apply {s : Shape} {φ : FTy} (a : FVec Ideal s φ) (i : s.Idx) :
    Host.sqrt a i = Ideal.sqrt (a i) := rfl

/-- A splat of a float word reads that float everywhere. -/
theorem splat_apply (t : Shape) (dims : Fin (⟨0, ![]⟩ : Shape).rank → Fin t.rank)
    (hb : (⟨0, ![]⟩ : Shape).BroadcastsInDim t dims) (b : BitVec 32) (j : t.Idx) :
    broadcastInDim t dims hb (constant (F := Ideal) ⟨0, ![]⟩ .f32 b) j = Ideal.ofBits .f32 b := rfl

/-- The two arrangements count the same degrees. -/
theorem deg_eq (dst : IVec Cert.KernelIdeal.S1600000 32) : PerEdge.deg dst = Scaled.deg dst := rfl

/-- The two arrangements wrap a negative node index alike. -/
theorem wrap_eq (v : IVec Cert.KernelIdeal.S1600000 32) : PerEdge.wrap v = Scaled.wrap v := rfl

/-- A degree plus one is a positive real. -/
theorem deg_add_one (dst : IVec Cert.KernelIdeal.S1600000 32) (v : Cert.KernelIdeal.S100000.Idx) :
    ∃ r : ℝ, 0 < r ∧ Scaled.deg dst v + 1 = (r : EReal) := by
  have aux : ∀ n : ℕ, ∃ r : ℝ, 0 < r ∧ (n : EReal) + 1 = (r : EReal) :=
    fun n => ⟨n + 1, by positivity, by rw [EReal.coe_add]; rfl⟩
  unfold Scaled.deg
  rw [scatterAdd_apply]
  simp only [splat_apply, Ideal.ofBits_zero_f32, ofBits_one, zero_add, Finset.sum_const, EReal.nsmul_eq_mul, mul_one]
  exact aux _

/-- The scale of a node is the inverse root of its degree plus one. -/
theorem scale_apply (dst : IVec Cert.KernelIdeal.S1600000 32) (v : Cert.KernelIdeal.S100000.Idx) :
    Scaled.scale dst v = Ideal.rsqrt (Scaled.deg dst v + 1) := by
  unfold Scaled.scale
  rw [hostRsqrt_apply, addf_apply, splat_apply, ofBits_one]

/-- Every feature of a node's row carries the node's scale. -/
theorem scaleRows_apply (dst : IVec Cert.KernelIdeal.S1600000 32) (u : Fin 100000) (f : Fin 64) :
    Scaled.scaleRows dst (ix2 u f) = Scaled.scale dst (ix1 u) := by
  unfold Scaled.scaleRows
  exact rows_apply _ _ _ u f

/-- The node a gather reads for edge `e` of the index array `v`: the entry, wrapped when negative, read signed and
    clamped into `[0, 99999]`. -/
def node (v : IVec Cert.KernelIdeal.S1600000 32) (e : Fin 1600000) : Fin 100000 :=
  ⟨min (Scaled.wrap v (ix1 e)).toInt.toNat 99999, by omega⟩

/-- An entry that reads signed as the node `u` is neither wrapped nor clamped. -/
theorem node_of_eq (v : IVec Cert.KernelIdeal.S1600000 32) (e : Fin 1600000) (u : Fin 100000)
    (h : (v (ix1 e)).toInt = (u.val : Int)) : node v e = u := by
  have hw : Scaled.wrap v (ix1 e) = v (ix1 e) := by
    show Scalar.select (IntOp.cmpi .slt (v (ix1 e)) 0#32) (IntOp.addi (v (ix1 e)) 100000#32) (v (ix1 e)) = _
    have hs : (v (ix1 e)).slt 0#32 = false := by simp [BitVec.slt, h]
    unfold IntOp.cmpi
    simp only [hs]
    exact select_zero _ _
  refine Fin.ext ?_
  show min (Scaled.wrap v (ix1 e)).toInt.toNat 99999 = u.val
  rw [hw, h]
  have := u.isLt
  omega

/-- The scaled arrangement's gather of rows at the wrapped index array `v` reads row `node v e`. -/
theorem gatherRowsK {α : Type} (x : Cert.KernelIdeal.S100000x64.Idx → α) (v : IVec Cert.KernelIdeal.S1600000 32)
    (e : Fin 1600000) (f : Fin 64) :
    Host.gather Cert.KernelIdeal.gather_S100000x64_S1600000x1_S1600000x64_1_0_n_n_0_1_164 x
      (broadcastInDim Cert.KernelIdeal.S1600000x1 ![0] Cert.KernelIdeal.Facts₀.bcast_S1600000_S1600000x1_0 (Scaled.wrap v))
      (ix2 e f) = x (ix2 (node v e) f) := by
  refine rowsGather_apply' (N := 100000) (K := 64) (E := 1600000) (by norm_num)
    Cert.KernelIdeal.Facts₀.gather_S100000x64_S1600000x1_S1600000x64_1_0_n_n_0_1_164_wf x _ e f (node v e) ?_
  rw [column_apply]
  rfl

/-- The per-edge arrangement's gather of rows at the wrapped index array `v` reads row `node v e`. -/
theorem gatherRowsR {α : Type} (x : Cert.ReferenceIdeal.S100000x64.Idx → α) (v : IVec Cert.ReferenceIdeal.S1600000 32)
    (e : Fin 1600000) (f : Fin 64) :
    Host.gather Cert.ReferenceIdeal.gather_S100000x64_S1600000x1_S1600000x64_1_0_n_n_0_1_164 x
      (broadcastInDim Cert.ReferenceIdeal.S1600000x1 ![0] Cert.ReferenceIdeal.Facts₀.bcast_S1600000_S1600000x1_0 (PerEdge.wrap v))
      (ix2 e f) = x (ix2 (node v e) f) := by
  refine rowsGather_apply' (N := 100000) (K := 64) (E := 1600000) (by norm_num)
    Cert.ReferenceIdeal.Facts₀.gather_S100000x64_S1600000x1_S1600000x64_1_0_n_n_0_1_164_wf x _ e f (node v e) ?_
  rw [column_apply]
  rfl

/-- The per-edge arrangement's gather of entries at the wrapped index array `v` reads entry `node v e`. -/
theorem gatherEntriesR {α : Type} (x : Cert.ReferenceIdeal.S100000.Idx → α) (v : IVec Cert.ReferenceIdeal.S1600000 32)
    (e : Fin 1600000) :
    Host.gather Cert.ReferenceIdeal.gather_S100000_S1600000x1_S1600000_n_0_n_n_0_1_1 x
      (broadcastInDim Cert.ReferenceIdeal.S1600000x1 ![0] Cert.ReferenceIdeal.Facts₀.bcast_S1600000_S1600000x1_0 (PerEdge.wrap v))
      (ix1 e) = x (ix1 (node v e)) := by
  refine entriesGather_apply' (N := 100000) (E := 1600000) (by norm_num)
    Cert.ReferenceIdeal.Facts₀.gather_S100000_S1600000x1_S1600000_n_0_n_n_0_1_1_wf x _ e (node v e) ?_
  rw [column_apply]
  rfl

/-- `deg + 1` gathered at one end of edge `e`. -/
theorem degAt_apply (dst v : IVec Cert.KernelIdeal.S1600000 32) (e : Fin 1600000) :
    PerEdge.degAt dst v (ix1 e) = Scaled.deg dst (ix1 (node v e)) + 1 := by
  unfold PerEdge.degAt
  rw [addf_apply, gatherEntriesR, splat_apply, ofBits_one, deg_eq]

/-- The normaliser of edge `e`. -/
theorem norm_apply (dst src : IVec Cert.KernelIdeal.S1600000 32) (e : Fin 1600000) :
    PerEdge.norm dst src (ix1 e)
      = Ideal.sqrt ((Scaled.deg dst (ix1 (node dst e)) + 1) * (Scaled.deg dst (ix1 (node src e)) + 1)) := by
  unfold PerEdge.norm
  rw [hostSqrt_apply, mulf_apply, degAt_apply, degAt_apply]

end AtIndex

/-! ## The two arrangements agree -/

section Main
variable [Cert.KernelIdeal.Facts₀] [Cert.ReferenceIdeal.Facts₀]

/-- Scaling every row by `(deg + 1)^(-1/2)` before the gather and every summed row after it is dividing every gathered
    row by `sqrt ((deg (dst e) + 1) * (deg (src e) + 1))` before the sum. -/
theorem agg_eq (h : FVec Ideal Cert.KernelIdeal.S100000x64 .f32) (dst src : IVec Cert.KernelIdeal.S1600000 32) :
    Scaled.agg h dst src = PerEdge.agg h dst src := by
  funext i
  obtain ⟨u, f, rfl⟩ : ∃ u f, i = ix2 u f := ⟨i 0, i 1, eq_ix2 i⟩
  obtain ⟨ru, hru, hdu⟩ := deg_add_one dst (ix1 u)
  unfold Scaled.agg PerEdge.agg
  rw [mulf_apply, scatterAdd_apply, scatterAdd_apply, splat_apply, Ideal.ofBits_zero_f32, zero_add, zero_add,
    scaleRows_apply, scale_apply, hdu, rsqrt_pos ru hru, sum_mul_coe _ _ _ (inv_nonneg.mpr (Real.sqrt_nonneg ru))]
  refine Finset.sum_congr rfl (fun j hj => ?_)
  obtain ⟨e, f', rfl⟩ : ∃ e f', j = ix2 e f' := ⟨j 0, j 1, eq_ix2 j⟩
  obtain ⟨hd, rfl⟩ := rowsScatter_some
    Cert.KernelIdeal.Facts₀.scatter_S100000x64_S1600000x1_S1600000x64_1_0_0_1_wf _ e f' u f (Finset.mem_filter.mp hj).2
  rw [column_apply] at hd
  obtain ⟨rw', hrw, hdw⟩ := deg_add_one dst (ix1 (node src e))
  rw [gatherRowsK, mulf_apply, scaleRows_apply, scale_apply, hdw, rsqrt_pos _ hrw,
    hostDivf_apply, gatherRowsR, rows_apply, norm_apply, node_of_eq dst e u hd, hdu, hdw, div_sqrt_mul _ _ _ hru hrw]

end Main

end Cert.SymNorm

end
-- ==== Proof.SameFunction.lean ====
/-
  The idealized program and the idealized reference compute one function of the five argument arrays.

  Stage by stage. The input projection is the reference's first matrix product (the same sum over the 128 features). In
  each layer the program's scaled aggregation is the reference's per-edge normalised aggregation (the symmetric
  normalisation's two arrangements), and the combine step — the positive part of (aggregate + state) times the layer's
  weights — is the reference's sum, matrix product and maximum with zero, entry by entry. The output projection is the
  reference's last matrix product.
-/
import proofs.«129152_j49855980372316_2_alg».proof.Proof.KernelValue
import proofs.«129152_j49855980372316_2_alg».proof.Proof.SymNormEq
import proofs.«129152_j49855980372316_2_alg».proof.Proof.Gen.ReferenceIdeal.Read

set_option maxRecDepth 16384

noncomputable section

namespace Cert.KernelIdeal.Result

open Cert.KernelIdeal Idealize.ShloMosaic Idealize.ShloMosaic.TcCoe Idealize.SL.Sem

/-! ## The index functions of the two sides are the same functions -/

theorem InputProjection_lrow (i : S100000x64.Idx) (k : Fin 128) : InputProjection.lrow i k = Cert.ReferenceIdeal.Read.lidx_main_v28 i k :=
  funext fun a => Fin.ext (by
    match a with
    | ⟨0, _⟩ => rfl
    | ⟨1, _⟩ => rfl)

theorem InputProjection_wcol (i : S100000x64.Idx) (k : Fin 128) : InputProjection.wcol i k = Cert.ReferenceIdeal.Read.ridx_main_v28 i k :=
  funext fun a => Fin.ext (by
    match a with
    | ⟨0, _⟩ => rfl
    | ⟨1, _⟩ => rfl)

theorem CombineFirst_lrow (i : S100000x64.Idx) (k : Fin 64) : CombineFirst.lrow i k = Cert.ReferenceIdeal.Read.lidx_main_v45 i k :=
  funext fun a => Fin.ext (by
    match a with
    | ⟨0, _⟩ => rfl
    | ⟨1, _⟩ => rfl)

theorem CombineFirst_wcol (i : S100000x64.Idx) (k : Fin 64) : CombineFirst.wcol i k = Cert.ReferenceIdeal.Read.ridx_main_v45 i k :=
  funext fun a => Fin.ext (by
    match a with
    | ⟨0, _⟩ => rfl
    | ⟨1, _⟩ => rfl)

theorem CombineSecond_lrow (i : S100000x64.Idx) (k : Fin 64) : CombineSecond.lrow i k = Cert.ReferenceIdeal.Read.lidx_main_v63 i k :=
  funext fun a => Fin.ext (by
    match a with
    | ⟨0, _⟩ => rfl
    | ⟨1, _⟩ => rfl)

theorem CombineSecond_wcol (i : S100000x64.Idx) (k : Fin 64) : CombineSecond.wcol i k = Cert.ReferenceIdeal.Read.ridx_main_v63 i k :=
  funext fun a => Fin.ext (by
    match a with
    | ⟨0, _⟩ => rfl
    | ⟨1, _⟩ => rfl)

theorem OutputProjection_lrow (i : S100000x32.Idx) (k : Fin 64) : OutputProjection.lrow i k = Cert.ReferenceIdeal.Read.lidx_main_v65 i k :=
  funext fun a => Fin.ext (by
    match a with
    | ⟨0, _⟩ => rfl
    | ⟨1, _⟩ => rfl)

theorem OutputProjection_wcol (i : S100000x32.Idx) (k : Fin 64) : OutputProjection.wcol i k = Cert.ReferenceIdeal.Read.ridx_main_v65 i k :=
  funext fun a => Fin.ext (by
    match a with
    | ⟨0, _⟩ => rfl
    | ⟨1, _⟩ => rfl)

/-! ## The stages -/

/-- The input projection is the reference's first matrix product. -/
theorem state0_eq (x0 : (⟨S100000x128, .f32⟩ : BufTy).Contents (Elt Ideal)) (x2 : (⟨S128x64, .f32⟩ : BufTy).Contents (Elt Ideal)) :
    state0 x0 x2 = Cert.ReferenceIdeal.Read.val_main_v28 (F := Ideal) x0 x2 := by
  funext i
  rw [Cert.ReferenceIdeal.Read.val_main_v28_apply]
  unfold state0 InputProjection.prod
  refine Finset.sum_congr rfl fun k _ => ?_
  rw [InputProjection_lrow, InputProjection_wcol]

/-- The reference's first aggregation is the per-edge arrangement over its first matrix product. -/
theorem perEdge_1 (x0 : (⟨S100000x128, .f32⟩ : BufTy).Contents (Elt Ideal)) (x1 : (⟨S2x1600000, .i32⟩ : BufTy).Contents (Elt Ideal))
    (x2 : (⟨S128x64, .f32⟩ : BufTy).Contents (Elt Ideal)) :
    Cert.ReferenceIdeal.Read.val_main_v41 (F := Ideal) x0 x1 x2 = SymNorm.PerEdge.agg (Cert.ReferenceIdeal.Read.val_main_v28 (F := Ideal) x0 x2) (dstOf x1) (srcOf x1) := rfl

theorem state1_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S2x64x64, .f32⟩ : BufTy).Contents (Elt Ideal)) :
    state1 x0 x1 x2 x3 = Cert.ReferenceIdeal.Read.val_main_v46 (F := Ideal) x0 x1 x2 x3 := by
  funext i
  rw [Cert.ReferenceIdeal.Read.val_main_v46_apply, Cert.ReferenceIdeal.Read.val_main_v45_apply]
  unfold state1 CombineFirst.combine
  rw [SymNorm.agg_eq, state0_eq]
  refine congrArg₂ max (Finset.sum_congr rfl fun k _ => ?_) rfl
  rw [CombineFirst_lrow, CombineFirst_wcol, Cert.ReferenceIdeal.Read.val_main_v42_apply, perEdge_1]
  rfl

/-- The reference's second aggregation is the per-edge arrangement over its first layer's state. -/
theorem perEdge_2 (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S2x64x64, .f32⟩ : BufTy).Contents (Elt Ideal)) :
    Cert.ReferenceIdeal.Read.val_main_v59 (F := Ideal) x0 x1 x2 x3 = SymNorm.PerEdge.agg (Cert.ReferenceIdeal.Read.val_main_v46 (F := Ideal) x0 x1 x2 x3) (dstOf x1) (srcOf x1) := rfl

theorem state2_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S2x64x64, .f32⟩ : BufTy).Contents (Elt Ideal)) :
    state2 x0 x1 x2 x3 = Cert.ReferenceIdeal.Read.val_main_v64 (F := Ideal) x0 x1 x2 x3 := by
  funext i
  rw [Cert.ReferenceIdeal.Read.val_main_v64_apply, Cert.ReferenceIdeal.Read.val_main_v63_apply]
  unfold state2 CombineSecond.combine
  rw [SymNorm.agg_eq, state1_eq]
  refine congrArg₂ max (Finset.sum_congr rfl fun k _ => ?_) rfl
  rw [CombineSecond_lrow, CombineSecond_wcol, Cert.ReferenceIdeal.Read.val_main_v60_apply, perEdge_2]
  rfl

/-- THE TWO PROGRAMS' RESULTS are one function of the arguments. -/
theorem result_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S2x64x64, .f32⟩ : BufTy).Contents (Elt Ideal)) (x4 : (⟨S64x32, .f32⟩ : BufTy).Contents (Elt Ideal)) :
    result x0 x1 x2 x3 x4 = Cert.ReferenceIdeal.Read.val_main_v65 (F := Ideal) x0 x1 x2 x3 x4 := by
  funext i
  rw [Cert.ReferenceIdeal.Read.val_main_v65_apply]
  unfold result OutputProjection.prod
  rw [state2_eq]
  refine Finset.sum_congr rfl fun k _ => ?_
  rw [OutputProjection_lrow, OutputProjection_wcol]

end Cert.KernelIdeal.Result

end
-- ==== Proof.lean ====
/-
  A two-layer graph convolution over 100000 nodes and 1600000 edges — a matrix product into 64 features, two layers of
  "aggregate the neighbours with the symmetric degree normalisation, add the state, multiply by the layer's weights, keep
  the positive part", and a matrix product into 32 outputs — as four tiled regions with the gather and scatter-add between
  them on the host, against the same computation written with whole-array operations.

  The two differ in ONE arrangement: the kernel scales every node's row by `(deg + 1)^(-1/2)` before the gather and every
  aggregated row by the same factor after the scatter-add, where the reference divides every gathered row, edge by edge, by
  `sqrt ((deg (dst) + 1) * (deg (src) + 1))`. On the extended reals these agree for EVERY edge list and every feature
  array: `deg + 1` is a positive real, an edge lands on row `u` only when its `dst` entry is `u`, and a nonnegative real
  factor moves across a sum of extended reals (Proof/SymNorm.lean, Proof/SymNormEq.lean). Everything else is the same sum in
  another tiling: each region's result array is one whole-array function of its operands (Proof/InputProjection.lean,
  Proof/CombineFirst.lean, Proof/CombineSecond.lean, Proof/OutputProjection.lean), the run's result is their composition
  through the host operations (Proof/KernelRun.lean, Proof/KernelValue.lean), and that composition is the reference's last
  stage (Proof/SameFunction.lean). The precondition is never opened: no step needs an entry to be finite.
-/
import proofs.«129152_j49855980372316_2_alg».proof.Defs
import proofs.«129152_j49855980372316_2_alg».proof.Proof.Gen.Kernel
import proofs.«129152_j49855980372316_2_alg».proof.Proof.Gen.Kernel.Frame
import proofs.«129152_j49855980372316_2_alg».proof.Proof.Gen.KernelIdeal
import proofs.«129152_j49855980372316_2_alg».proof.Proof.Gen.KernelIdeal.Frame
import proofs.«129152_j49855980372316_2_alg».proof.Proof.Gen.ReferenceIdeal
import proofs.«129152_j49855980372316_2_alg».proof.Proof.Gen.Pre_finite_inputs
import proofs.«129152_j49855980372316_2_alg».proof.Proof.Gen.ReferenceIdeal.Run
import proofs.«129152_j49855980372316_2_alg».proof.Proof.Gen.ReferenceIdeal.Read
import proofs.«129152_j49855980372316_2_alg».proof.Proof.KernelValue
import proofs.«129152_j49855980372316_2_alg».proof.Proof.SameFunction
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel : Cert.frame_Kernel := fun m ρ _ => Cert.Kernel.Gen.frame m ρ

/-- So does the idealized program. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs run, and both end with the result array at the
    composed function of the arguments: the kernel's by its run read back, the reference's by its run and the equality
    of the two functions. -/
theorem algebraic : Cert.algebraic_KernelIdeal_ReferenceIdeal := by
  intro m ρ m' ρ' _ hagree
  refine ⟨fun c => Cert.KernelIdeal.Result.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Result.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq, (hagree c).1, (hagree c).2.1, (hagree c).2.2.1, (hagree c).2.2.2.1,
    (hagree c).2.2.2.2]
  exact (Cert.KernelIdeal.Result.result_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
